-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v52) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S16x784 : Shape := ⟨2, ![16, 784]⟩
abbrev S4x6x16 : Shape := ⟨3, ![4, 6, 16]⟩
abbrev S4x16x6 : Shape := ⟨3, ![4, 16, 6]⟩
abbrev S10x16 : Shape := ⟨2, ![10, 16]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S16x784 : S_.BroadcastsInDim S16x784 (![] : Fin 0 → Fin S16x784.rank)
  reducesTo_S16x784_S_d0_1 : S16x784.ReducesTo [0, 1] S_
  bcast_S_S4x6x16 : S_.BroadcastsInDim S4x6x16 (![] : Fin 0 → Fin S4x6x16.rank)
  reducesTo_S4x6x16_S_d0_1_2 : S4x6x16.ReducesTo [0, 1, 2] S_
  bcast_S_S4x16x6 : S_.BroadcastsInDim S4x16x6 (![] : Fin 0 → Fin S4x16x6.rank)
  reducesTo_S4x16x6_S_d0_1_2 : S4x16x6.ReducesTo [0, 1, 2] S_
  bcast_S_S10x16 : S_.BroadcastsInDim S10x16 (![] : Fin 0 → Fin S10x16.rank)
  reducesTo_S10x16_S_d0_1 : S10x16.ReducesTo [0, 1] S_

variable [Facts]

def fn_part1 {F : FTy → Type} [FloatOps F] (main_arg4 : FVec F S4x16x6 .f32) (main_arg5 : FVec F S10x16 .f32) (main_v13 : IVec S_ 1) (main_v16 : IVec S4x6x16 1) : IVec S_ 1 :=
  let main_c_5 : IVec S_ 1 := constantI S_ 1 1#1
  let main_v17 : IVec S_ 1 := (fun x v => Host.reduce IntOp.andi x v reducesTo_S4x6x16_S_d0_1_2 h_S_) main_v16 main_c_5
  let main_v18 : IVec S_ 1 := andi main_v13 main_v17
  let main_v19 : FVec F S4x16x6 .f32 := Host.absf main_arg4
  let main_cst_6 : FVec F S_ .f32 := constant S_ .f32 0x7F800000#32
  let main_v20 : FVec F S4x16x6 .f32 := broadcastInDim S4x16x6 ![] bcast_S_S4x16x6 main_cst_6
  let main_v21 : IVec S4x16x6 1 := cmpf .olt main_v19 main_v20
  let main_c_7 : IVec S_ 1 := constantI S_ 1 1#1
  let main_v22 : IVec S_ 1 := (fun x v => Host.reduce IntOp.andi x v reducesTo_S4x16x6_S_d0_1_2 h_S_) main_v21 main_c_7
  let main_v23 : IVec S_ 1 := andi main_v18 main_v22
  let main_v24 : FVec F S10x16 .f32 := Host.absf main_arg5
  let main_cst_8 : FVec F S_ .f32 := constant S_ .f32 0x7F800000#32
  let main_v25 : FVec F S10x16 .f32 := broadcastInDim S10x16 ![] bcast_S_S10x16 main_cst_8
  let main_v26 : IVec S10x16 1 := cmpf .olt main_v24 main_v25
  let main_c_9 : IVec S_ 1 := constantI S_ 1 1#1
  let main_v27 : IVec S_ 1 := (fun x v => Host.reduce IntOp.andi x v reducesTo_S10x16_S_d0_1 h_S_) main_v26 main_c_9
  let main_v28 : IVec S_ 1 := andi main_v23 main_v27
  main_v28

def fn {F : FTy → Type} [FloatOps F] (main_arg0 : FVec F S65536x784 .f32) (main_arg1 : FVec F S16x784 .f32) (main_arg2 : FVec F S4x6x16 .f32) (main_arg3 : FVec F S4x6x16 .f32) (main_arg4 : FVec F S4x16x6 .f32) (main_arg5 : FVec F S10x16 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S16x784 .f32 := Host.absf main_arg1
  let main_cst_0 : FVec F S_ .f32 := constant S_ .f32 0x7F800000#32
  let main_v5 : FVec F S16x784 .f32 := broadcastInDim S16x784 ![] bcast_S_S16x784 main_cst_0
  let main_v6 : IVec S16x784 1 := cmpf .olt main_v4 main_v5
  let main_c_1 : IVec S_ 1 := constantI S_ 1 1#1
  let main_v7 : IVec S_ 1 := (fun x v => Host.reduce IntOp.andi x v reducesTo_S16x784_S_d0_1 h_S_) main_v6 main_c_1
  let main_v8 : IVec S_ 1 := andi main_v3 main_v7
  let main_v9 : FVec F S4x6x16 .f32 := Host.absf main_arg2
  let main_cst_2 : FVec F S_ .f32 := constant S_ .f32 0x7F800000#32
  let main_v10 : FVec F S4x6x16 .f32 := broadcastInDim S4x6x16 ![] bcast_S_S4x6x16 main_cst_2
  let main_v11 : IVec S4x6x16 1 := cmpf .olt main_v9 main_v10
  let main_c_3 : IVec S_ 1 := constantI S_ 1 1#1
  let main_v12 : IVec S_ 1 := (fun x v => Host.reduce IntOp.andi x v reducesTo_S4x6x16_S_d0_1_2 h_S_) main_v11 main_c_3
  let main_v13 : IVec S_ 1 := andi main_v8 main_v12
  let main_v14 : FVec F S4x6x16 .f32 := Host.absf main_arg3
  let main_cst_4 : FVec F S_ .f32 := constant S_ .f32 0x7F800000#32
  let main_v15 : FVec F S4x6x16 .f32 := broadcastInDim S4x6x16 ![] bcast_S_S4x6x16 main_cst_4
  let main_v16 : IVec S4x6x16 1 := cmpf .olt main_v14 main_v15
  fn_part1 (F := F) main_arg4 main_arg5 main_v13 main_v16
-- ==== Kernel.lean ====
abbrev S65536x784 : Shape := ⟨2, ![65536, 784]⟩
abbrev S16x784 : Shape := ⟨2, ![16, 784]⟩
abbrev S4x6x16 : Shape := ⟨3, ![4, 6, 16]⟩
abbrev S4x16x6 : Shape := ⟨3, ![4, 16, 6]⟩
abbrev S10x16 : Shape := ⟨2, ![10, 16]⟩
abbrev S784x16 : Shape := ⟨2, ![784, 16]⟩
abbrev S4x12x16 : Shape := ⟨3, ![4, 12, 16]⟩
abbrev S4x16x12 : Shape := ⟨3, ![4, 16, 12]⟩
abbrev S16x10 : Shape := ⟨2, ![16, 10]⟩
abbrev S65536x34 : Shape := ⟨2, ![65536, 34]⟩
abbrev S4096x784 : Shape := ⟨2, ![4096, 784]⟩
abbrev S4096x34 : Shape := ⟨2, ![4096, 34]⟩
abbrev S4096x16 : Shape := ⟨2, ![4096, 16]⟩
abbrev S1x16x12 : Shape := ⟨3, ![1, 16, 12]⟩
abbrev S16x12 : Shape := ⟨2, ![16, 12]⟩
abbrev S1x6x16 : Shape := ⟨3, ![1, 6, 16]⟩
abbrev S6x16 : Shape := ⟨2, ![6, 16]⟩
abbrev S4096x12 : Shape := ⟨2, ![4096, 12]⟩
abbrev S4096x6 : Shape := ⟨2, ![4096, 6]⟩
abbrev S4096x10 : Shape := ⟨2, ![4096, 10]⟩
abbrev S65536x10 : Shape := ⟨2, ![65536, 10]⟩
abbrev S65536x6 : Shape := ⟨2, ![65536, 6]⟩

abbrev nBuf : Space → Nat
  | .hbm => 21
  | .vmem => 8
  | .smem => 0
  | _ => 0

abbrev bufTy : (tb : Table) → Fin (tcTables nBuf tb) → BufTy
  | .hbm, ⟨0, _⟩ => ⟨S65536x784, .f32⟩
  | .hbm, ⟨1, _⟩ => ⟨S16x784, .f32⟩
  | .hbm, ⟨2, _⟩ => ⟨S4x6x16, .f32⟩
  | .hbm, ⟨3, _⟩ => ⟨S4x6x16, .f32⟩
  | .hbm, ⟨4, _⟩ => ⟨S4x16x6, .f32⟩
  | .hbm, ⟨5, _⟩ => ⟨S10x16, .f32⟩
  | .hbm, ⟨6, _⟩ => ⟨S784x16, .f32⟩
  | .hbm, ⟨7, _⟩ => ⟨S784x16, .bf16⟩
  | .hbm, ⟨8, _⟩ => ⟨S4x12x16, .f32⟩
  | .hbm, ⟨9, _⟩ => ⟨S4x16x12, .f32⟩
  | .hbm, ⟨10, _⟩ => ⟨S4x16x12, .bf16⟩
  | .hbm, ⟨11, _⟩ => ⟨S4x6x16, .f32⟩
  | .hbm, ⟨12, _⟩ => ⟨S4x6x16, .bf16⟩
  | .hbm, ⟨13, _⟩ => ⟨S16x10, .f32⟩
  | .hbm, ⟨14, _⟩ => ⟨S16x10, .bf16⟩
  | .hbm, ⟨15, _⟩ => ⟨S65536x34, .f32⟩
  | .hbm, ⟨16, _⟩ => ⟨S65536x10, .f32⟩
  | .hbm, ⟨17, _⟩ => ⟨S65536x6, .f32⟩
  | .hbm, ⟨18, _⟩ => ⟨S65536x6, .f32⟩
  | .hbm, ⟨19, _⟩ => ⟨S65536x6, .f32⟩
  | .hbm, ⟨20, _⟩ => ⟨S65536x6, .f32⟩
  | .local _ .vmem, ⟨0, _⟩ => ⟨S4096x784, .f32⟩
  | .local _ .vmem, ⟨1, _⟩ => ⟨S4096x784, .f32⟩
  | .local _ .vmem, ⟨2, _⟩ => ⟨S784x16, .bf16⟩
  | .local _ .vmem, ⟨3, _⟩ => ⟨S4x16x12, .bf16⟩
  | .local _ .vmem, ⟨4, _⟩ => ⟨S4x6x16, .bf16⟩
  | .local _ .vmem, ⟨5, _⟩ => ⟨S16x10, .bf16⟩
  | .local _ .vmem, ⟨6, _⟩ => ⟨S4096x34, .f32⟩
  | .local _ .vmem, ⟨7, _⟩ => ⟨S4096x34, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16x12 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x6x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x34 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16x784_S784x16_1_0 : S16x784.Transposes [1, 0] S784x16
  bitsLt_bf16_f32 : FTy.bits .bf16 < FTy.bits .f32
  concatenates_S4x6x16_S4x6x16_S4x12x16_d1 : Shape.Concatenates [S4x6x16, S4x6x16] S4x12x16 1
  transposes_S4x12x16_S4x16x12_0_2_1 : S4x12x16.Transposes [0, 2, 1] S4x16x12
  transposes_S4x16x6_S4x6x16_0_2_1 : S4x16x6.Transposes [0, 2, 1] S4x6x16
  transposes_S10x16_S16x10_1_0 : S10x16.Transposes [1, 0] S16x10
  inb_S4096x784_S4096x784_0_0 : ∀ a, (![0, 0] : Fin 2 → Nat) a + S4096x784.size a ≤ S4096x784.size a
  h_S4096x784 : 0 < S4096x784.numel
  inb_S784x16_S784x16_0_0 : ∀ a, (![0, 0] : Fin 2 → Nat) a + S784x16.size a ≤ S784x16.size a
  h_S784x16 : 0 < S784x16.numel
  shapeCasts_S784x16_S784x16 : S784x16.ShapeCasts S784x16
  inb_S4x16x12_S1x16x12_0_0_0 : ∀ a, (![0, 0, 0] : Fin 3 → Nat) a + S1x16x12.size a ≤ S4x16x12.size a
  h_S1x16x12 : 0 < S1x16x12.numel
  shapeCasts_S1x16x12_S16x12 : S1x16x12.ShapeCasts S16x12
  inb_S4x6x16_S1x6x16_0_0_0 : ∀ a, (![0, 0, 0] : Fin 3 → Nat) a + S1x6x16.size a ≤ S4x6x16.size a
  h_S1x6x16 : 0 < S1x6x16.numel
  shapeCasts_S1x6x16_S6x16 : S1x6x16.ShapeCasts S6x16
  slices_S4096x12_o0_0_S4096x6 : S4096x12.Slices ![0, 0] S4096x6
  slices_S4096x12_o0_6_S4096x6 : S4096x12.Slices ![0, 6] S4096x6
  inb_S4x16x12_S1x16x12_1_0_0 : ∀ a, (![1, 0, 0] : Fin 3 → Nat) a + S1x16x12.size a ≤ S4x16x12.size a
  inb_S4x6x16_S1x6x16_1_0_0 : ∀ a, (![1, 0, 0] : Fin 3 → Nat) a + S1x6x16.size a ≤ S4x6x16.size a
  inb_S4x16x12_S1x16x12_2_0_0 : ∀ a, (![2, 0, 0] : Fin 3 → Nat) a + S1x16x12.size a ≤ S4x16x12.size a
  inb_S4x6x16_S1x6x16_2_0_0 : ∀ a, (![2, 0, 0] : Fin 3 → Nat) a + S1x6x16.size a ≤ S4x6x16.size a
  inb_S4x16x12_S1x16x12_3_0_0 : ∀ a, (![3, 0, 0] : Fin 3 → Nat) a + S1x16x12.size a ≤ S4x16x12.size a
  inb_S4x6x16_S1x6x16_3_0_0 : ∀ a, (![3, 0, 0] : Fin 3 → Nat) a + S1x6x16.size a ≤ S4x6x16.size a
  inb_S16x10_S16x10_0_0 : ∀ a, (![0, 0] : Fin 2 → Nat) a + S16x10.size a ≤ S16x10.size a
  h_S16x10 : 0 < S16x10.numel
  shapeCasts_S16x10_S16x10 : S16x10.ShapeCasts S16x10
  concatenates_S4096x10_S4096x6_S4096x6_S4096x6_S4096x6_S4096x34_d1 : Shape.Concatenates [S4096x10, S4096x6, S4096x6, S4096x6, S4096x6] S4096x34 1
  inb_S4096x34_S4096x34_0_0 : ∀ a, (![0, 0] : Fin 2 → Nat) a + S4096x34.size a ≤ S4096x34.size a
  h_S4096x34 : 0 < S4096x34.numel
  slices_S65536x34_S65536x10_0_0 : S65536x34.Slices ![0, 0] S65536x10
  slices_S65536x34_S65536x6_0_10 : S65536x34.Slices ![0, 10] S65536x6
  slices_S65536x34_S65536x6_0_16 : S65536x34.Slices ![0, 16] S65536x6
  slices_S65536x34_S65536x6_0_22 : S65536x34.Slices ![0, 22] S65536x6
  slices_S65536x34_S65536x6_0_28 : S65536x34.Slices ![0, 28] S65536x6
  dot_S4096x784_S784x16_S4096x16_1_0_0_1_n_n_wf : DotDims.WF S4096x784 S784x16 S4096x16 [1] [0] [0] [1] [] []
  dot_S4096x16_S16x12_S4096x12_1_0_0_1_n_n_wf : DotDims.WF S4096x16 S16x12 S4096x12 [1] [0] [0] [1] [] []
  dot_S4096x6_S6x16_S4096x16_1_0_0_1_n_n_wf : DotDims.WF S4096x6 S6x16 S4096x16 [1] [0] [0] [1] [] []
  dot_S4096x16_S16x10_S4096x10_1_0_0_1_n_n_wf : DotDims.WF S4096x16 S16x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x784.size a ≤ S65536x784.size a
  hwx0_0 : ∀ i : grid0.Coords, EltTy.bits .f32 = 32 ∨ (Rect.block (s := S65536x784) S4096x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x16.size a ≤ S784x16.size a
  hwx0_1 : ∀ i : grid0.Coords, EltTy.bits .bf16 = 32 ∨ (Rect.block (s := S784x16) S784x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16x12.size a ≤ S4x16x12.size a
  hwx0_2 : ∀ i : grid0.Coords, EltTy.bits .bf16 = 32 ∨ (Rect.block (s := S4x16x12) S4x16x12.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x6x16.size a ≤ S4x6x16.size a
  hwx0_3 : ∀ i : grid0.Coords, EltTy.bits .bf16 = 32 ∨ (Rect.block (s := S4x6x16) S4x6x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x10.size a ≤ S16x10.size a
  hwx0_4 : ∀ i : grid0.Coords, EltTy.bits .bf16 = 32 ∨ (Rect.block (s := S16x10) S16x10.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x34.size a ≤ S65536x34.size a
  hwx0_5 : ∀ i : grid0.Coords, EltTy.bits .f32 = 32 ∨ (Rect.block (s := S65536x34) S4096x34.size (cc0_transform_5 i) (hinb0_5 i)).WholeWords (EltTy.packing .f32)

variable [Facts₀]

def dot_S4096x784_S784x16_S4096x16_1_0_0_1_n_n : DotDims S4096x784 S784x16 S4096x16 where
  lhsContracting := [1]
  rhsContracting := [0]
  lhsNonContracting := [0]
  rhsNonContracting := [1]
  lhsBatch := []
  rhsBatch := []
  wf := dot_S4096x784_S784x16_S4096x16_1_0_0_1_n_n_wf
def dot_S4096x16_S16x12_S4096x12_1_0_0_1_n_n : DotDims S4096x16 S16x12 S4096x12 where
  lhsContracting := [1]
  rhsContracting := [0]
  lhsNonContracting := [0]
  rhsNonContracting := [1]
  lhsBatch := []
  rhsBatch := []
  wf := dot_S4096x16_S16x12_S4096x12_1_0_0_1_n_n_wf
def dot_S4096x6_S6x16_S4096x16_1_0_0_1_n_n : DotDims S4096x6 S6x16 S4096x16 where
  lhsContracting := [1]
  rhsContracting := [0]
  lhsNonContracting := [0]
  rhsNonContracting := [1]
  lhsBatch := []
  rhsBatch := []
  wf := dot_S4096x6_S6x16_S4096x16_1_0_0_1_n_n_wf
def dot_S4096x16_S16x10_S4096x10_1_0_0_1_n_n : DotDims S4096x16 S16x10 S4096x10 where
  lhsContracting := [1]
  rhsContracting := [0]
  lhsNonContracting := [0]
  rhsNonContracting := [1]
  lhsBatch := []
  rhsBatch := []
  wf := dot_S4096x16_S16x10_S4096x10_1_0_0_1_n_n_wf

abbrev win0_0 : Pipeline.Window sig grid0 :=
  Pipeline.Window.ofSpec (Memref.whole main_arg0) S4096x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x16x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x6x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S4096x34.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x784 : Shape := ⟨2, ![65536, 784]⟩
abbrev S16x784 : Shape := ⟨2, ![16, 784]⟩
abbrev S4x6x16 : Shape := ⟨3, ![4, 6, 16]⟩
abbrev S4x16x6 : Shape := ⟨3, ![4, 16, 6]⟩
abbrev S10x16 : Shape := ⟨2, ![10, 16]⟩
abbrev S784x16 : Shape := ⟨2, ![784, 16]⟩
abbrev S65536x16 : Shape := ⟨2, ![65536, 16]⟩
abbrev S1x6x16 : Shape := ⟨3, ![1, 6, 16]⟩
abbrev S6x16 : Shape := ⟨2, ![6, 16]⟩
abbrev S16x6 : Shape := ⟨2, ![16, 6]⟩
abbrev S65536x6 : Shape := ⟨2, ![65536, 6]⟩
abbrev S1x16x6 : Shape := ⟨3, ![1, 16, 6]⟩
abbrev S16x10 : Shape := ⟨2, ![16, 10]⟩
abbrev S65536x10 : Shape := ⟨2, ![65536, 10]⟩

abbrev nBuf : Space → Nat
  | .hbm => 66
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S16x784, .f32⟩
  | .hbm, ⟨2, _⟩ => ⟨S4x6x16, .f32⟩
  | .hbm, ⟨3, _⟩ => ⟨S4x6x16, .f32⟩
  | .hbm, ⟨4, _⟩ => ⟨S4x16x6, .f32⟩
  | .hbm, ⟨5, _⟩ => ⟨S10x16, .f32⟩
  | .hbm, ⟨6, _⟩ => ⟨S784x16, .f32⟩
  | .hbm, ⟨7, _⟩ => ⟨S65536x16, .f32⟩
  | .hbm, ⟨8, _⟩ => ⟨S1x6x16, .f32⟩
  | .hbm, ⟨9, _⟩ => ⟨S6x16, .f32⟩
  | .hbm, ⟨10, _⟩ => ⟨S16x6, .f32⟩
  | .hbm, ⟨11, _⟩ => ⟨S65536x6, .f32⟩
  | .hbm, ⟨12, _⟩ => ⟨S1x6x16, .f32⟩
  | .hbm, ⟨13, _⟩ => ⟨S6x16, .f32⟩
  | .hbm, ⟨14, _⟩ => ⟨S16x6, .f32⟩
  | .hbm, ⟨15, _⟩ => ⟨S65536x6, .f32⟩
  | .hbm, ⟨16, _⟩ => ⟨S65536x6, .f32⟩
  | .hbm, ⟨17, _⟩ => ⟨S1x16x6, .f32⟩
  | .hbm, ⟨18, _⟩ => ⟨S16x6, .f32⟩
  | .hbm, ⟨19, _⟩ => ⟨S6x16, .f32⟩
  | .hbm, ⟨20, _⟩ => ⟨S65536x16, .f32⟩
  | .hbm, ⟨21, _⟩ => ⟨S65536x16, .f32⟩
  | .hbm, ⟨22, _⟩ => ⟨S1x6x16, .f32⟩
  | .hbm, ⟨23, _⟩ => ⟨S6x16, .f32⟩
  | .hbm, ⟨24, _⟩ => ⟨S16x6, .f32⟩
  | .hbm, ⟨25, _⟩ => ⟨S65536x6, .f32⟩
  | .hbm, ⟨26, _⟩ => ⟨S1x6x16, .f32⟩
  | .hbm, ⟨27, _⟩ => ⟨S6x16, .f32⟩
  | .hbm, ⟨28, _⟩ => ⟨S16x6, .f32⟩
  | .hbm, ⟨29, _⟩ => ⟨S65536x6, .f32⟩
  | .hbm, ⟨30, _⟩ => ⟨S65536x6, .f32⟩
  | .hbm, ⟨31, _⟩ => ⟨S1x16x6, .f32⟩
  | .hbm, ⟨32, _⟩ => ⟨S16x6, .f32⟩
  | .hbm, ⟨33, _⟩ => ⟨S6x16, .f32⟩
  | .hbm, ⟨34, _⟩ => ⟨S65536x16, .f32⟩
  | .hbm, ⟨35, _⟩ => ⟨S65536x16, .f32⟩
  | .hbm, ⟨36, _⟩ => ⟨S1x6x16, .f32⟩
  | .hbm, ⟨37, _⟩ => ⟨S6x16, .f32⟩
  | .hbm, ⟨38, _⟩ => ⟨S16x6, .f32⟩
  | .hbm, ⟨39, _⟩ => ⟨S65536x6, .f32⟩
  | .hbm, ⟨40, _⟩ => ⟨S1x6x16, .f32⟩
  | .hbm, ⟨41, _⟩ => ⟨S6x16, .f32⟩
  | .hbm, ⟨42, _⟩ => ⟨S16x6, .f32⟩
  | .hbm, ⟨43, _⟩ => ⟨S65536x6, .f32⟩
  | .hbm, ⟨44, _⟩ => ⟨S65536x6, .f32⟩
  | .hbm, ⟨45, _⟩ => ⟨S1x16x6, .f32⟩
  | .hbm, ⟨46, _⟩ => ⟨S16x6, .f32⟩
  | .hbm, ⟨47, _⟩ => ⟨S6x16, .f32⟩
  | .hbm, ⟨48, _⟩ => ⟨S65536x16, .f32⟩
  | .hbm, ⟨49, _⟩ => ⟨S65536x16, .f32⟩
  | .hbm, ⟨50, _⟩ => ⟨S1x6x16, .f32⟩
  | .hbm, ⟨51, _⟩ => ⟨S6x16, .f32⟩
  | .hbm, ⟨52, _⟩ => ⟨S16x6, .f32⟩
  | .hbm, ⟨53, _⟩ => ⟨S65536x6, .f32⟩
  | .hbm, ⟨54, _⟩ => ⟨S1x6x16, .f32⟩
  | .hbm, ⟨55, _⟩ => ⟨S6x16, .f32⟩
  | .hbm, ⟨56, _⟩ => ⟨S16x6, .f32⟩
  | .hbm, ⟨57, _⟩ => ⟨S65536x6, .f32⟩
  | .hbm, ⟨58, _⟩ => ⟨S65536x6, .f32⟩
  | .hbm, ⟨59, _⟩ => ⟨S1x16x6, .f32⟩
  | .hbm, ⟨60, _⟩ => ⟨S16x6, .f32⟩
  | .hbm, ⟨61, _⟩ => ⟨S6x16, .f32⟩
  | .hbm, ⟨62, _⟩ => ⟨S65536x16, .f32⟩
  | .hbm, ⟨63, _⟩ => ⟨S65536x16, .f32⟩
  | .hbm, ⟨64, _⟩ => ⟨S16x10, .f32⟩
  | .hbm, ⟨65, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩

abbrev nD : Nat := 1
abbrev τ : Topo := Topo.v7x

variable {F : FTy → Type} [FloatOps F]

class Facts₀ : Prop where
  transposes_S16x784_S784x16_1_0 : S16x784.Transposes [1, 0] S784x16
  slices_S4x6x16_S1x6x16_0_0_0 : S4x6x16.Slices ![0, 0, 0] S1x6x16
  shapeCasts_S1x6x16_S6x16 : S1x6x16.ShapeCasts S6x16
  transposes_S6x16_S16x6_1_0 : S6x16.Transposes [1, 0] S16x6
  slices_S4x16x6_S1x16x6_0_0_0 : S4x16x6.Slices ![0, 0, 0] S1x16x6
  shapeCasts_S1x16x6_S16x6 : S1x16x6.ShapeCasts S16x6
  transposes_S16x6_S6x16_1_0 : S16x6.Transposes [1, 0] S6x16
  slices_S4x6x16_S1x6x16_1_0_0 : S4x6x16.Slices ![1, 0, 0] S1x6x16
  slices_S4x16x6_S1x16x6_1_0_0 : S4x16x6.Slices ![1, 0, 0] S1x16x6
  slices_S4x6x16_S1x6x16_2_0_0 : S4x6x16.Slices ![2, 0, 0] S1x6x16
  slices_S4x16x6_S1x16x6_2_0_0 : S4x16x6.Slices ![2, 0, 0] S1x16x6
  slices_S4x6x16_S1x6x16_3_0_0 : S4x6x16.Slices ![3, 0, 0] S1x6x16
  slices_S4x16x6_S1x16x6_3_0_0 : S4x16x6.Slices ![3, 0, 0] S1x16x6
  transposes_S10x16_S16x10_1_0 : S10x16.Transposes [1, 0] S16x10
  dot_S65536x784_S784x16_S65536x16_1_0_0_1_n_n_wf : DotDims.WF S65536x784 S784x16 S65536x16 [1] [0] [0] [1] [] []
  dot_S65536x16_S16x6_S65536x6_1_0_0_1_n_n_wf : DotDims.WF S65536x16 S16x6 S65536x6 [1] [0] [0] [1] [] []
  dot_S65536x6_S6x16_S65536x16_1_0_0_1_n_n_wf : DotDims.WF S65536x6 S6x16 S65536x16 [1] [0] [0] [1] [] []
  dot_S65536x16_S16x10_S65536x10_1_0_0_1_n_n_wf : DotDims.WF S65536x16 S16x10 S65536x10 [1] [0] [0] [1] [] []

variable [Facts₀]

def dot_S65536x784_S784x16_S65536x16_1_0_0_1_n_n : DotDims S65536x784 S784x16 S65536x16 where
  lhsContracting := [1]
  rhsContracting := [0]
  lhsNonContracting := [0]
  rhsNonContracting := [1]
  lhsBatch := []
  rhsBatch := []
  wf := dot_S65536x784_S784x16_S65536x16_1_0_0_1_n_n_wf
def dot_S65536x16_S16x6_S65536x6_1_0_0_1_n_n : DotDims S65536x16 S16x6 S65536x6 where
  lhsContracting := [1]
  rhsContracting := [0]
  lhsNonContracting := [0]
  rhsNonContracting := [1]
  lhsBatch := []
  rhsBatch := []
  wf := dot_S65536x16_S16x6_S65536x6_1_0_0_1_n_n_wf
def dot_S65536x6_S6x16_S65536x16_1_0_0_1_n_n : DotDims S65536x6 S6x16 S65536x16 where
  lhsContracting := [1]
  rhsContracting := [0]
  lhsNonContracting := [0]
  rhsNonContracting := [1]
  lhsBatch := []
  rhsBatch := []
  wf := dot_S65536x6_S6x16_S65536x16_1_0_0_1_n_n_wf
def dot_S65536x16_S16x10_S65536x10_1_0_0_1_n_n : DotDims S65536x16 S16x10 S65536x10 where
  lhsContracting := [1]
  rhsContracting := [0]
  lhsNonContracting := [0]
  rhsNonContracting := [1]
  lhsBatch := []
  rhsBatch := []
  wf := dot_S65536x16_S16x10_S65536x10_1_0_0_1_n_n_wf

class Facts : Prop extends Facts₀ where

variable [Facts]
-- ==== Proof.Spec.lean ====
/-
  A bilinear residual network on one input row, on the extended reals.

  A row `x` of 784 numbers is embedded into a state of 16 numbers, `s₀ d = ∑ k, x k · E d k`. Four blocks follow;
  block `i` projects the state twice into 6 numbers, multiplies the two projections entry by entry (the block's
  hidden vector `g j = (∑ d, s d · L i j d) · (∑ d, s d · R i j d)`), and adds its image under a third matrix back
  onto the state, `s' d = s d + ∑ j, g j · D i d j`. The network returns the last state's 10 logits
  `∑ d, s₄ d · H c d` and the four hidden vectors. `packed` lays the five results side by side in one row of 34
  numbers: the logits, then the hidden vectors in block order.

  Everything is a finite sum or product of extended reals; nothing here needs the inputs to be finite.
-/
import Idealize.ShloMosaic.PureOps.Ideal
import Idealize.ShloMosaic.Lib.ValueIdx

noncomputable section

namespace Bilinear

/-- The network's five weight arrays, each read by coordinates. -/
structure Weights where
  /-- the embedding, `[16, 784]` -/
  emb : Fin 16 → Fin 784 → EReal
  /-- the left projections, `[4, 6, 16]` -/
  left : Fin 4 → Fin 6 → Fin 16 → EReal
  /-- the right projections, `[4, 6, 16]` -/
  right : Fin 4 → Fin 6 → Fin 16 → EReal
  /-- the way back into the state, `[4, 16, 6]` -/
  down : Fin 4 → Fin 16 → Fin 6 → EReal
  /-- the classifier head, `[10, 16]` -/
  head : Fin 10 → Fin 16 → EReal

variable (W : Weights)

/-- The embedded row. -/
def embed (x : Fin 784 → EReal) : Fin 16 → EReal := fun d => ∑ k : Fin 784, x k * W.emb d k

/-- Block `i`'s hidden vector of a state: the two projections multiplied entry by entry. -/
def gate (i : Fin 4) (s : Fin 16 → EReal) : Fin 6 → EReal :=
  fun j => (∑ d : Fin 16, s d * W.left i j d) * (∑ d : Fin 16, s d * W.right i j d)

/-- Block `i`'s new state: the old one plus the hidden vector's image. -/
def step (i : Fin 4) (s : Fin 16 → EReal) : Fin 16 → EReal :=
  fun d => s d + ∑ j : Fin 6, gate W i s j * W.down i d j

/-- The state before block 0, 1, 2, 3 and after block 3. -/
def state0 (x : Fin 784 → EReal) : Fin 16 → EReal := embed W x
def state1 (x : Fin 784 → EReal) : Fin 16 → EReal := step W 0 (state0 W x)
def state2 (x : Fin 784 → EReal) : Fin 16 → EReal := step W 1 (state1 W x)
def state3 (x : Fin 784 → EReal) : Fin 16 → EReal := step W 2 (state2 W x)
def state4 (x : Fin 784 → EReal) : Fin 16 → EReal := step W 3 (state3 W x)

/-- The four hidden vectors. -/
def hidden0 (x : Fin 784 → EReal) : Fin 6 → EReal := gate W 0 (state0 W x)
def hidden1 (x : Fin 784 → EReal) : Fin 6 → EReal := gate W 1 (state1 W x)
def hidden2 (x : Fin 784 → EReal) : Fin 6 → EReal := gate W 2 (state2 W x)
def hidden3 (x : Fin 784 → EReal) : Fin 6 → EReal := gate W 3 (state3 W x)

/-- The logits of the last state. -/
def logits (x : Fin 784 → EReal) : Fin 10 → EReal := fun c => ∑ d : Fin 16, state4 W x d * W.head c d

/-- The five results side by side: columns 0–9 the logits, 10–15, 16–21, 22–27, 28–33 the hidden vectors. -/
def packed (x : Fin 784 → EReal) : Fin 34 → EReal := fun q =>
  if h0 : q.val < 10 then logits W x ⟨q.val, h0⟩
  else if h1 : q.val < 16 then hidden0 W x ⟨q.val - 10, by omega⟩
  else if h2 : q.val < 22 then hidden1 W x ⟨q.val - 16, by omega⟩
  else if h3 : q.val < 28 then hidden2 W x ⟨q.val - 22, by omega⟩
  else hidden3 W x ⟨q.val - 28, by have := q.isLt; omega⟩

variable (x : Fin 784 → EReal)

theorem packed_logits (c : Fin 10) (q : Fin 34) (hq : q.val = c.val) : packed W x q = logits W x c := by
  unfold packed
  rw [dif_pos (by have := c.isLt; omega)]
  exact congrArg _ (Fin.ext hq)

theorem packed_hidden0 (j : Fin 6) (q : Fin 34) (hq : q.val = 10 + j.val) : packed W x q = hidden0 W x j := by
  unfold packed
  rw [dif_neg (by omega), dif_pos (by have := j.isLt; omega)]
  exact congrArg _ (Fin.ext (by show q.val - 10 = j.val; omega))

theorem packed_hidden1 (j : Fin 6) (q : Fin 34) (hq : q.val = 16 + j.val) : packed W x q = hidden1 W x j := by
  unfold packed
  rw [dif_neg (by omega), dif_neg (by omega), dif_pos (by have := j.isLt; omega)]
  exact congrArg _ (Fin.ext (by show q.val - 16 = j.val; omega))

theorem packed_hidden2 (j : Fin 6) (q : Fin 34) (hq : q.val = 22 + j.val) : packed W x q = hidden2 W x j := by
  unfold packed
  rw [dif_neg (by omega), dif_neg (by omega), dif_neg (by omega), dif_pos (by have := j.isLt; omega)]
  exact congrArg _ (Fin.ext (by show q.val - 22 = j.val; omega))

theorem packed_hidden3 (j : Fin 6) (q : Fin 34) (hq : q.val = 28 + j.val) : packed W x q = hidden3 W x j := by
  unfold packed
  rw [dif_neg (by omega), dif_neg (by omega), dif_neg (by omega), dif_neg (by omega)]
  exact congrArg _ (Fin.ext (by show q.val - 28 = j.val; omega))

end Bilinear

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«144170_j61976378081964_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«144170_j61976378081964_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibFusedProjection.lean ====
/-
  The three matrix forms of a bilinear block's tile body, read at an entry, on the extended reals.

  A tile of `n` rows carries a state `s : [n, K]`. One block
    • multiplies the state by ONE matrix `B : [K, N]` holding both projections side by side, cuts the product into
      the column range from 0 and the column range from `o`, each `m` wide, and multiplies the two cuts entry by entry:
      at `(p, j)` this is `(∑ k, s (p, k) · B (k, j)) · (∑ k, s (p, k) · B (k, o + j))`;
    • multiplies that hidden tile `g : [n, K']` by a matrix `D : [K', N']` and adds the product onto the state:
      at `(p, q)` this is `s (p, q) + ∑ k, g (p, k) · D (k, q)`.
  Every left operand is first cast to a narrower float format, which on the extended reals is the identity, and every
  product accumulates into zero, so each is the textbook sum over the contracted axis.
  The matrices come from a stack `[m, a, b]` of which the body loads one `[1, a, b]` slab and drops the unit axis:
  slab `k` read as a matrix at `(i, j)` is the stack at `(k, i, j)`.
-/
import proofs.«144170_j61976378081964_2_alg».proof.Proof.LibDotRecord
import proofs.«144170_j61976378081964_2_alg».proof.Proof.LibTileOps
import Idealize.ShloMosaic.Lib.ValueLayout

namespace Bilinear.Tile

open Idealize.ShloMosaic Idealize.ShloMosaic.ValueIdx

variable {n K N m : ℕ}

/-- A state tile cast to a narrower format, times a matrix, into the zero accumulator: at `(p, q)` the sum over the
    contracted axis. -/
theorem project_apply {ψ φ₂ : FTy} (d : DotDims ⟨2, ![n, K]⟩ ⟨2, ![K, N]⟩ ⟨2, ![n, N]⟩)
    (h1 : d.lhsContracting = [1]) (h2 : d.rhsContracting = [0]) (h3 : d.lhsNonContracting = [0])
    (h4 : d.rhsNonContracting = [1]) (h5 : d.lhsBatch = []) (h6 : d.rhsBatch = [])
    (s : FVec Ideal ⟨2, ![n, K]⟩ .f32) (B : FVec Ideal ⟨2, ![K, N]⟩ φ₂) (hb : ψ.bits < FTy.bits .f32)
    (prec : Option ContractPrecision) (p : Fin n) (q : Fin N) :
    FloatOps.matmul d prec (truncf ψ s hb) B (constant ⟨2, ![n, N]⟩ .f32 0x00000000#32) (ix2 p q)
      = ∑ k : Fin K, s (ix2 p k) * B (ix2 k q) :=
  DotRecord.matmul_zero_apply d h1 h2 h3 h4 h5 h6 (truncf ψ s hb) B prec p q

/-- The two projections taken by one product and multiplied entry by entry. -/
theorem gate_apply {ψ φ₂ : FTy} (d : DotDims ⟨2, ![n, K]⟩ ⟨2, ![K, N]⟩ ⟨2, ![n, N]⟩)
    (h1 : d.lhsContracting = [1]) (h2 : d.rhsContracting = [0]) (h3 : d.lhsNonContracting = [0])
    (h4 : d.rhsNonContracting = [1]) (h5 : d.lhsBatch = []) (h6 : d.rhsBatch = [])
    (s : FVec Ideal ⟨2, ![n, K]⟩ .f32) (B : FVec Ideal ⟨2, ![K, N]⟩ φ₂) (hb : ψ.bits < FTy.bits .f32)
    (prec : Option ContractPrecision) (o : ℕ)
    (hs0 : (⟨2, ![n, N]⟩ : Shape).Slices ![0, 0] ⟨2, ![n, m]⟩) (hs1 : (⟨2, ![n, N]⟩ : Shape).Slices ![0, o] ⟨2, ![n, m]⟩)
    (p : Fin n) (j : Fin m) (jl jr : Fin N) (hl : jl.val = 0 + j.val) (hr : jr.val = o + j.val) :
    mulf (extractStridedSlice ⟨2, ![n, m]⟩ ![0, 0]
            (FloatOps.matmul d prec (truncf ψ s hb) B (constant ⟨2, ![n, N]⟩ .f32 0x00000000#32)) hs0)
         (extractStridedSlice ⟨2, ![n, m]⟩ ![0, o]
            (FloatOps.matmul d prec (truncf ψ s hb) B (constant ⟨2, ![n, N]⟩ .f32 0x00000000#32)) hs1) (ix2 p j)
      = (∑ k : Fin K, s (ix2 p k) * B (ix2 k jl)) * (∑ k : Fin K, s (ix2 p k) * B (ix2 k jr)) :=
  congrArg₂ (· * ·)
    ((slice2_axis1_apply 0 _ hs0 p j jl hl).trans (project_apply d h1 h2 h3 h4 h5 h6 s B hb prec p jl))
    ((slice2_axis1_apply o _ hs1 p j jr hr).trans (project_apply d h1 h2 h3 h4 h5 h6 s B hb prec p jr))

/-- The residual update: the state plus the hidden tile's image. -/
theorem residual_apply {ψ φ₂ : FTy} (d : DotDims ⟨2, ![n, K]⟩ ⟨2, ![K, N]⟩ ⟨2, ![n, N]⟩)
    (h1 : d.lhsContracting = [1]) (h2 : d.rhsContracting = [0]) (h3 : d.lhsNonContracting = [0])
    (h4 : d.rhsNonContracting = [1]) (h5 : d.lhsBatch = []) (h6 : d.rhsBatch = [])
    (s : FVec Ideal ⟨2, ![n, N]⟩ .f32) (g : FVec Ideal ⟨2, ![n, K]⟩ .f32) (D : FVec Ideal ⟨2, ![K, N]⟩ φ₂)
    (hb : ψ.bits < FTy.bits .f32) (prec : Option ContractPrecision) (p : Fin n) (q : Fin N) :
    addf s (FloatOps.matmul d prec (truncf ψ g hb) D (constant ⟨2, ![n, N]⟩ .f32 0x00000000#32)) (ix2 p q)
      = s (ix2 p q) + ∑ k : Fin K, g (ix2 p k) * D (ix2 k q) :=
  congrArg (s (ix2 p q) + ·) (project_apply d h1 h2 h3 h4 h5 h6 g D hb prec p q)

/-- Slab `k` of a stack, loaded through its `[1, a, b]` rectangle and read as a matrix. -/
theorem slabMatrix_apply {a b M : ℕ} {Val : EltTy → Type} {e : EltTy} (x : (⟨3, ![M, a, b]⟩ : Shape).Idx → Val e)
    (o : ℕ) (k : Fin M) (hk : k.val = o)
    (inb : ∀ ax, (![o, 0, 0] : Fin 3 → ℕ) ax + (⟨3, ![1, a, b]⟩ : Shape).size ax ≤ (⟨3, ![M, a, b]⟩ : Shape).size ax)
    (h : (⟨3, ![1, a, b]⟩ : Shape).ShapeCasts ⟨2, ![a, b]⟩) (i : Fin a) (j : Fin b) :
    shapeCast ⟨2, ![a, b]⟩
        (View.ld (Val := Val) x (Rect.unit (s := ⟨3, ![M, a, b]⟩) ![o, 0, 0] (⟨3, ![1, a, b]⟩ : Shape).size inb)) h (ix2 i j)
      = x (ix3 k i j) :=
  (shapeCast_1ab_ab_apply _ h i j).trans (Hmu.Lib.ld_slab x o k hk inb i j)

end Bilinear.Tile
-- ==== Proof.Body.lean ====
/-
  What one grid point writes into its output block, entry by entry.

  The body multiplies its 4096-row input block into a state tile, runs the four blocks on it and stores the logits and
  the four hidden tiles side by side in a 34-column block. Every row of the tile is treated alike and alone: row `p` of
  the stored block is the network of `Spec.lean` applied to row `p` of the input block, with the weights as the body
  finds them in its staged weight blocks — the embedding and the head transposed, the two projections of a block side
  by side in one `[16, 12]` matrix (columns 0–5 the left one, 6–11 the right one), the way back transposed.
-/
import proofs.«144170_j61976378081964_2_alg».proof.Proof.Gen.KernelIdeal.Frame
import proofs.«144170_j61976378081964_2_alg».proof.Proof.Spec
import proofs.«144170_j61976378081964_2_alg».proof.Proof.LibFusedProjection

noncomputable section

namespace Cert.KernelIdeal.Hand

open Idealize.ShloMosaic Idealize.ShloMosaic.ValueIdx Cert.KernelIdeal Cert.KernelIdeal.Gen

theorem hz2 : (![0, 0] : Fin 2 → Nat) = fun _ => 0 := funext fun a => by fin_cases a <;> rfl

/-- The network's weights as the body finds them in its four staged weight blocks. -/
def tileWeights (x1 : Vec Ideal S784x16 .bf16) (x2 : Vec Ideal S4x16x12 .bf16) (x3 : Vec Ideal S4x6x16 .bf16)
    (x4 : Vec Ideal S16x10 .bf16) : Bilinear.Weights where
  emb d k := x1 (ix2 k d)
  left i j d := x2 (ix3 i d ⟨j.val, by have := j.isLt; omega⟩)
  right i j d := x2 (ix3 i d ⟨6 + j.val, by have := j.isLt; omega⟩)
  down i d j := x3 (ix3 i j d)
  head c d := x4 (ix2 d c)

/-! ## The body's three matrix forms -/

/-- The embedded tile: the input block times the embedding. -/
def tileEmbed (x : FVec Ideal S4096x784 .f32) (E : FVec Ideal S784x16 .bf16) : FVec Ideal S4096x16 .f32 :=
  matmul dot_S4096x784_S784x16_S4096x16_1_0_0_1_n_n none (truncf .bf16 x bitsLt_bf16_f32) E (constant S4096x16 .f32 0x00000000#32)

/-- A block's hidden tile: the state times the block's two projections held side by side, cut in two, the halves
    multiplied entry by entry. -/
def tileGate (s : FVec Ideal S4096x16 .f32) (B : FVec Ideal S16x12 .bf16) : FVec Ideal S4096x6 .f32 :=
  mulf
    (extractStridedSlice S4096x6 ![0, 0] (matmul dot_S4096x16_S16x12_S4096x12_1_0_0_1_n_n none (truncf .bf16 s bitsLt_bf16_f32) B (constant S4096x12 .f32 0x00000000#32)) slices_S4096x12_o0_0_S4096x6)
    (extractStridedSlice S4096x6 ![0, 6] (matmul dot_S4096x16_S16x12_S4096x12_1_0_0_1_n_n none (truncf .bf16 s bitsLt_bf16_f32) B (constant S4096x12 .f32 0x00000000#32)) slices_S4096x12_o0_6_S4096x6)

/-- A block's new state tile: the old one plus the hidden tile's image. -/
def tileStep (s : FVec Ideal S4096x16 .f32) (g : FVec Ideal S4096x6 .f32) (D : FVec Ideal S6x16 .bf16) : FVec Ideal S4096x16 .f32 :=
  addf s (matmul dot_S4096x6_S6x16_S4096x16_1_0_0_1_n_n none (truncf .bf16 g bitsLt_bf16_f32) D (constant S4096x16 .f32 0x00000000#32))

/-- The logits of a state tile. -/
def tileHead (s : FVec Ideal S4096x16 .f32) (H : FVec Ideal S16x10 .bf16) : FVec Ideal S4096x10 .f32 :=
  matmul dot_S4096x16_S16x10_S4096x10_1_0_0_1_n_n none (truncf .bf16 s bitsLt_bf16_f32) H (constant S4096x10 .f32 0x00000000#32)

theorem tileEmbed_apply (x : FVec Ideal S4096x784 .f32) (E : FVec Ideal S784x16 .bf16) (p : Fin 4096) (d : Fin 16) :
    tileEmbed x E (ix2 p d) = ∑ k : Fin 784, x (ix2 p k) * E (ix2 k d) :=
  Bilinear.Tile.project_apply dot_S4096x784_S784x16_S4096x16_1_0_0_1_n_n rfl rfl rfl rfl rfl rfl x E bitsLt_bf16_f32 none p d

theorem tileGate_apply (s : FVec Ideal S4096x16 .f32) (B : FVec Ideal S16x12 .bf16) (p : Fin 4096) (j : Fin 6) :
    tileGate s B (ix2 p j)
      = (∑ d : Fin 16, s (ix2 p d) * B (ix2 d ⟨j.val, by have := j.isLt; omega⟩))
        * (∑ d : Fin 16, s (ix2 p d) * B (ix2 d ⟨6 + j.val, by have := j.isLt; omega⟩)) :=
  Bilinear.Tile.gate_apply dot_S4096x16_S16x12_S4096x12_1_0_0_1_n_n rfl rfl rfl rfl rfl rfl s B bitsLt_bf16_f32 none 6
    slices_S4096x12_o0_0_S4096x6 slices_S4096x12_o0_6_S4096x6 p j _ _ (Nat.zero_add _).symm rfl

theorem tileStep_apply (s : FVec Ideal S4096x16 .f32) (g : FVec Ideal S4096x6 .f32) (D : FVec Ideal S6x16 .bf16)
    (p : Fin 4096) (d : Fin 16) :
    tileStep s g D (ix2 p d) = s (ix2 p d) + ∑ j : Fin 6, g (ix2 p j) * D (ix2 j d) :=
  Bilinear.Tile.residual_apply dot_S4096x6_S6x16_S4096x16_1_0_0_1_n_n rfl rfl rfl rfl rfl rfl s g D bitsLt_bf16_f32 none p d

theorem tileHead_apply (s : FVec Ideal S4096x16 .f32) (H : FVec Ideal S16x10 .bf16) (p : Fin 4096) (c : Fin 10) :
    tileHead s H (ix2 p c) = ∑ d : Fin 16, s (ix2 p d) * H (ix2 d c) :=
  Bilinear.Tile.project_apply dot_S4096x16_S16x10_S4096x10_1_0_0_1_n_n rfl rfl rfl rfl rfl rfl s H bitsLt_bf16_f32 none p c

/-! ## The payloads are these forms -/

theorem pay2_eq (v0 : Vec Ideal S4096x784 .f32) (v2 : Vec Ideal S784x16 .bf16) :
    k0_pay2 (F := Ideal) v0 v2 = tileEmbed v0 (shapeCast S784x16 v2 shapeCasts_S784x16_S784x16) := rfl

theorem pay3_eq (v0 : Vec Ideal S4096x784 .f32) (v2 : Vec Ideal S784x16 .bf16) (v5 : Vec Ideal S1x16x12 .bf16) :
    k0_pay3 (F := Ideal) v0 v2 v5 = tileGate (k0_pay2 v0 v2) (shapeCast S16x12 v5 shapeCasts_S1x16x12_S16x12) := rfl

theorem pay4_eq (v0 : Vec Ideal S4096x784 .f32) (v2 : Vec Ideal S784x16 .bf16) (v5 : Vec Ideal S1x16x12 .bf16)
    (v7 : Vec Ideal S1x6x16 .bf16) :
    k0_pay4 (F := Ideal) v0 v2 v5 v7
      = tileStep (k0_pay2 v0 v2) (k0_pay3 v0 v2 v5) (shapeCast S6x16 v7 shapeCasts_S1x6x16_S6x16) := rfl

theorem pay5_eq (v0 : Vec Ideal S4096x784 .f32) (v2 : Vec Ideal S784x16 .bf16) (v5 : Vec Ideal S1x16x12 .bf16)
    (v7 : Vec Ideal S1x6x16 .bf16) (v17 : Vec Ideal S1x16x12 .bf16) :
    k0_pay5 (F := Ideal) v0 v2 v5 v7 v17
      = tileGate (k0_pay4 v0 v2 v5 v7) (shapeCast S16x12 v17 shapeCasts_S1x16x12_S16x12) := rfl

theorem pay6_eq (v0 : Vec Ideal S4096x784 .f32) (v2 : Vec Ideal S784x16 .bf16) (v5 : Vec Ideal S1x16x12 .bf16)
    (v7 : Vec Ideal S1x6x16 .bf16) (v17 : Vec Ideal S1x16x12 .bf16) (v19 : Vec Ideal S1x6x16 .bf16) :
    k0_pay6 (F := Ideal) v0 v2 v5 v7 v17 v19
      = tileStep (k0_pay4 v0 v2 v5 v7) (k0_pay5 v0 v2 v5 v7 v17) (shapeCast S6x16 v19 shapeCasts_S1x6x16_S6x16) := rfl

theorem pay1_eq (v13 v25 : FVec Ideal S4096x6 .f32) (v28 : FVec Ideal S4096x16 .f32) (v30 : FVec Ideal S16x12 .bf16)
    (v31 : Vec Ideal S1x6x16 .bf16) (v41 : Vec Ideal S1x16x12 .bf16) (v43 : Vec Ideal S1x6x16 .bf16) (v54 : Vec Ideal S16x10 .bf16) :
    k0_pay1 (F := Ideal) v13 v25 v28 v30 v31 v41 v43 v54
      = concatenate S4096x34 1
          [⟨S4096x10, tileHead
              (tileStep (tileStep v28 (tileGate v28 v30) (shapeCast S6x16 v31 shapeCasts_S1x6x16_S6x16))
                (tileGate (tileStep v28 (tileGate v28 v30) (shapeCast S6x16 v31 shapeCasts_S1x6x16_S6x16)) (shapeCast S16x12 v41 shapeCasts_S1x16x12_S16x12))
                (shapeCast S6x16 v43 shapeCasts_S1x6x16_S6x16))
              (shapeCast S16x10 v54 shapeCasts_S16x10_S16x10)⟩,
           ⟨S4096x6, v13⟩, ⟨S4096x6, v25⟩, ⟨S4096x6, tileGate v28 v30⟩,
           ⟨S4096x6, tileGate (tileStep v28 (tileGate v28 v30) (shapeCast S6x16 v31 shapeCasts_S1x6x16_S6x16)) (shapeCast S16x12 v41 shapeCasts_S1x16x12_S16x12)⟩]
          concatenates_S4096x10_S4096x6_S4096x6_S4096x6_S4096x6_S4096x34_d1 := rfl

/-! ## The 34 columns of the stored block -/

/-- Columns 0–9 of the stored block are the logits tile. -/
theorem cat_logits (a : FVec Ideal S4096x10 .f32) (b c d e : FVec Ideal S4096x6 .f32) (p : Fin 4096) (q : Fin 34)
    (col : Fin 10) (hq : q.val = 0 + col.val) :
    concatenate S4096x34 1 [⟨S4096x10, a⟩, ⟨S4096x6, b⟩, ⟨S4096x6, c⟩, ⟨S4096x6, d⟩, ⟨S4096x6, e⟩] concatenates_S4096x10_S4096x6_S4096x6_S4096x6_S4096x6_S4096x34_d1 (ix2 p q) = a (ix2 p col) :=
  concatenate_apply_piece 1 _ _ (ix2 p q) 0 (by show (0 : ℕ) < 5; decide) S4096x10 a rfl rfl 0 rfl (ix2 p col)
    (fun ax hax => by
      match ax with
      | ⟨0, _⟩ => rfl
      | ⟨1, _⟩ => exact absurd rfl hax)
    (by show 0 + col.val = q.val; omega)

/-- Columns 10–15 are the first hidden tile. -/
theorem cat_hidden0 (a : FVec Ideal S4096x10 .f32) (b c d e : FVec Ideal S4096x6 .f32) (p : Fin 4096) (q : Fin 34)
    (col : Fin 6) (hq : q.val = 10 + col.val) :
    concatenate S4096x34 1 [⟨S4096x10, a⟩, ⟨S4096x6, b⟩, ⟨S4096x6, c⟩, ⟨S4096x6, d⟩, ⟨S4096x6, e⟩] concatenates_S4096x10_S4096x6_S4096x6_S4096x6_S4096x6_S4096x34_d1 (ix2 p q) = b (ix2 p col) :=
  concatenate_apply_piece 1 _ _ (ix2 p q) 1 (by show (1 : ℕ) < 5; decide) S4096x6 b rfl rfl 10 rfl (ix2 p col)
    (fun ax hax => by
      match ax with
      | ⟨0, _⟩ => rfl
      | ⟨1, _⟩ => exact absurd rfl hax)
    (by show 10 + col.val = q.val; omega)

/-- Columns 16–21 are the second hidden tile. -/
theorem cat_hidden1 (a : FVec Ideal S4096x10 .f32) (b c d e : FVec Ideal S4096x6 .f32) (p : Fin 4096) (q : Fin 34)
    (col : Fin 6) (hq : q.val = 16 + col.val) :
    concatenate S4096x34 1 [⟨S4096x10, a⟩, ⟨S4096x6, b⟩, ⟨S4096x6, c⟩, ⟨S4096x6, d⟩, ⟨S4096x6, e⟩] concatenates_S4096x10_S4096x6_S4096x6_S4096x6_S4096x6_S4096x34_d1 (ix2 p q) = c (ix2 p col) :=
  concatenate_apply_piece 1 _ _ (ix2 p q) 2 (by show (2 : ℕ) < 5; decide) S4096x6 c rfl rfl 16 rfl (ix2 p col)
    (fun ax hax => by
      match ax with
      | ⟨0, _⟩ => rfl
      | ⟨1, _⟩ => exact absurd rfl hax)
    (by show 16 + col.val = q.val; omega)

/-- Columns 22–27 are the third hidden tile. -/
theorem cat_hidden2 (a : FVec Ideal S4096x10 .f32) (b c d e : FVec Ideal S4096x6 .f32) (p : Fin 4096) (q : Fin 34)
    (col : Fin 6) (hq : q.val = 22 + col.val) :
    concatenate S4096x34 1 [⟨S4096x10, a⟩, ⟨S4096x6, b⟩, ⟨S4096x6, c⟩, ⟨S4096x6, d⟩, ⟨S4096x6, e⟩] concatenates_S4096x10_S4096x6_S4096x6_S4096x6_S4096x6_S4096x34_d1 (ix2 p q) = d (ix2 p col) :=
  concatenate_apply_piece 1 _ _ (ix2 p q) 3 (by show (3 : ℕ) < 5; decide) S4096x6 d rfl rfl 22 rfl (ix2 p col)
    (fun ax hax => by
      match ax with
      | ⟨0, _⟩ => rfl
      | ⟨1, _⟩ => exact absurd rfl hax)
    (by show 22 + col.val = q.val; omega)

/-- Columns 28–33 are the fourth hidden tile. -/
theorem cat_hidden3 (a : FVec Ideal S4096x10 .f32) (b c d e : FVec Ideal S4096x6 .f32) (p : Fin 4096) (q : Fin 34)
    (col : Fin 6) (hq : q.val = 28 + col.val) :
    concatenate S4096x34 1 [⟨S4096x10, a⟩, ⟨S4096x6, b⟩, ⟨S4096x6, c⟩, ⟨S4096x6, d⟩, ⟨S4096x6, e⟩] concatenates_S4096x10_S4096x6_S4096x6_S4096x6_S4096x6_S4096x34_d1 (ix2 p q) = e (ix2 p col) :=
  concatenate_apply_piece 1 _ _ (ix2 p q) 4 (by show (4 : ℕ) < 5; decide) S4096x6 e rfl rfl 28 rfl (ix2 p col)
    (fun ax hax => by
      match ax with
      | ⟨0, _⟩ => rfl
      | ⟨1, _⟩ => exact absurd rfl hax)
    (by show 28 + col.val = q.val; omega)

/-! ## Row `p` of the stored block -/

section Row

variable (x0 : Vec Ideal S4096x784 .f32) (x1 : Vec Ideal S784x16 .bf16) (x2 : Vec Ideal S4x16x12 .bf16)
  (x3 : Vec Ideal S4x6x16 .bf16) (x4 : Vec Ideal S16x10 .bf16) (p : Fin 4096)

/-- Row `p` of the input block. -/
def tileRow : Fin 784 → EReal := fun k => x0 (ix2 p k)

/-- A hidden tile at row `p`, from the state tile's row and the block's two projections read off slab `i`. -/
theorem gate_of (i : Fin 4) (s : FVec Ideal S4096x16 .f32) (st : Fin 16 → EReal) (hs : ∀ d, s (ix2 p d) = st d)
    (B : FVec Ideal S16x12 .bf16) (hB : ∀ (d : Fin 16) (q : Fin 12), B (ix2 d q) = x2 (ix3 i d q)) (j : Fin 6) :
    tileGate s B (ix2 p j) = Bilinear.gate (tileWeights x1 x2 x3 x4) i st j := by
  rw [tileGate_apply]
  unfold Bilinear.gate
  refine congrArg₂ (· * ·) (Finset.sum_congr rfl fun d _ => ?_) (Finset.sum_congr rfl fun d _ => ?_)
  · exact congrArg₂ (· * ·) (hs d) (hB d _)
  · exact congrArg₂ (· * ·) (hs d) (hB d _)

/-- A new state tile at row `p`, from the old state's row, the hidden tile's row and the way back read off slab `i`. -/
theorem step_of (i : Fin 4) (s : FVec Ideal S4096x16 .f32) (st : Fin 16 → EReal) (hs : ∀ d, s (ix2 p d) = st d)
    (g : FVec Ideal S4096x6 .f32) (hg : ∀ j, g (ix2 p j) = Bilinear.gate (tileWeights x1 x2 x3 x4) i st j)
    (D : FVec Ideal S6x16 .bf16) (hD : ∀ (j : Fin 6) (d : Fin 16), D (ix2 j d) = x3 (ix3 i j d)) (d : Fin 16) :
    tileStep s g D (ix2 p d) = Bilinear.step (tileWeights x1 x2 x3 x4) i st d := by
  rw [tileStep_apply]
  unfold Bilinear.step
  exact congrArg₂ (· + ·) (hs d) (Finset.sum_congr rfl fun j _ => congrArg₂ (· * ·) (hg j) (hD j d))

/-- The logits tile at row `p`, from the last state's row. -/
theorem head_of (s : FVec Ideal S4096x16 .f32) (st : Fin 16 → EReal) (hs : ∀ d, s (ix2 p d) = st d)
    (H : FVec Ideal S16x10 .bf16) (hH : ∀ (d : Fin 16) (c : Fin 10), H (ix2 d c) = x4 (ix2 d c)) (c : Fin 10) :
    tileHead s H (ix2 p c) = ∑ d : Fin 16, st d * (tileWeights x1 x2 x3 x4).head c d := by
  rw [tileHead_apply]
  exact Finset.sum_congr rfl fun d _ => congrArg₂ (· * ·) (hs d) (hH d c)

/-- Slab `k` of the staged projections, as the body reads it: a `[16, 12]` matrix. -/
theorem projSlab (k : Fin 4) (o : ℕ) (hk : k.val = o)
    (inb : ∀ ax, (![o, 0, 0] : Fin 3 → ℕ) ax + S1x16x12.size ax ≤ S4x16x12.size ax) (d : Fin 16) (q : Fin 12) :
    shapeCast S16x12 (View.ld (Val := Elt Ideal) x2 (Rect.unit (s := S4x16x12) ![o, 0, 0] S1x16x12.size inb))
        shapeCasts_S1x16x12_S16x12 (ix2 d q) = x2 (ix3 k d q) :=
  Bilinear.Tile.slabMatrix_apply x2 o k hk inb shapeCasts_S1x16x12_S16x12 d q

/-- Slab `k` of the staged way back, as the body reads it: a `[6, 16]` matrix. -/
theorem downSlab (k : Fin 4) (o : ℕ) (hk : k.val = o)
    (inb : ∀ ax, (![o, 0, 0] : Fin 3 → ℕ) ax + S1x6x16.size ax ≤ S4x6x16.size ax) (j : Fin 6) (d : Fin 16) :
    shapeCast S6x16 (View.ld (Val := Elt Ideal) x3 (Rect.unit (s := S4x6x16) ![o, 0, 0] S1x6x16.size inb))
        shapeCasts_S1x6x16_S6x16 (ix2 j d) = x3 (ix3 k j d) :=
  Bilinear.Tile.slabMatrix_apply x3 o k hk inb shapeCasts_S1x6x16_S6x16 j d

/-- The embedded tile at row `p`. -/
theorem state0_row (d : Fin 16) :
    k0_pay2 (F := Ideal) (View.ld x0 r0_0) (View.ld x1 r0_1) (ix2 p d)
      = Bilinear.state0 (tileWeights x1 x2 x3 x4) (tileRow x0 p) d := by
  simp only [View.ld_unit_zero (S := S4096x784) hz2, View.ld_unit_zero (S := S784x16) hz2]
  rw [pay2_eq, shapeCast_self]
  exact tileEmbed_apply x0 x1 p d

theorem hidden0_row (j : Fin 6) :
    k0_pay3 (F := Ideal) (View.ld x0 r0_0) (View.ld x1 r0_1) (View.ld x2 r0_2) (ix2 p j)
      = Bilinear.hidden0 (tileWeights x1 x2 x3 x4) (tileRow x0 p) j := by
  rw [pay3_eq]
  exact gate_of x1 x2 x3 x4 p 0 _ _ (state0_row x0 x1 x2 x3 x4 p) _ (projSlab x2 0 0 rfl _) j

theorem state1_row (d : Fin 16) :
    k0_pay4 (F := Ideal) (View.ld x0 r0_0) (View.ld x1 r0_1) (View.ld x2 r0_2) (View.ld x3 r0_3) (ix2 p d)
      = Bilinear.state1 (tileWeights x1 x2 x3 x4) (tileRow x0 p) d := by
  rw [pay4_eq]
  exact step_of x1 x2 x3 x4 p 0 _ _ (state0_row x0 x1 x2 x3 x4 p) _ (hidden0_row x0 x1 x2 x3 x4 p) _ (downSlab x3 0 0 rfl _) d

theorem hidden1_row (j : Fin 6) :
    k0_pay5 (F := Ideal) (View.ld x0 r0_0) (View.ld x1 r0_1) (View.ld x2 r0_2) (View.ld x3 r0_3) (View.ld x2 r0_4) (ix2 p j)
      = Bilinear.hidden1 (tileWeights x1 x2 x3 x4) (tileRow x0 p) j := by
  rw [pay5_eq]
  exact gate_of x1 x2 x3 x4 p 1 _ _ (state1_row x0 x1 x2 x3 x4 p) _ (projSlab x2 1 1 rfl _) j

theorem state2_row (d : Fin 16) :
    k0_pay6 (F := Ideal) (View.ld x0 r0_0) (View.ld x1 r0_1) (View.ld x2 r0_2) (View.ld x3 r0_3) (View.ld x2 r0_4) (View.ld x3 r0_5) (ix2 p d)
      = Bilinear.state2 (tileWeights x1 x2 x3 x4) (tileRow x0 p) d := by
  rw [pay6_eq]
  exact step_of x1 x2 x3 x4 p 1 _ _ (state1_row x0 x1 x2 x3 x4 p) _ (hidden1_row x0 x1 x2 x3 x4 p) _ (downSlab x3 1 1 rfl _) d

/-- ROW `p` OF THE STORED BLOCK is the network's packed result on row `p` of the input block. -/
theorem out_apply (q : Fin 34) :
    out0_5 (F := Ideal) x0 x1 x2 x3 x4 (ix2 p q) = Bilinear.packed (tileWeights x1 x2 x3 x4) (tileRow x0 p) q := by
  unfold out0_5
  rw [View.canon_unit_zero hz2, pay1_eq]
  -- the last two blocks, on the state the first two left
  have s2 := state2_row x0 x1 x2 x3 x4 p
  have g2 : ∀ j, tileGate _ (k0_pay7 (F := Ideal) (View.ld x2 r0_6)) (ix2 p j) = Bilinear.hidden2 (tileWeights x1 x2 x3 x4) (tileRow x0 p) j :=
    gate_of x1 x2 x3 x4 p 2 _ _ s2 _ (projSlab x2 2 2 rfl _)
  have s3 : ∀ d, tileStep _ _ (shapeCast S6x16 (View.ld (Val := Elt Ideal) x3 r0_7) shapeCasts_S1x6x16_S6x16) (ix2 p d) = Bilinear.state3 (tileWeights x1 x2 x3 x4) (tileRow x0 p) d :=
    step_of x1 x2 x3 x4 p 2 _ _ s2 _ g2 _ (downSlab x3 2 2 rfl _)
  have g3 : ∀ j, tileGate _ (shapeCast S16x12 (View.ld (Val := Elt Ideal) x2 r0_8) shapeCasts_S1x16x12_S16x12) (ix2 p j) = Bilinear.hidden3 (tileWeights x1 x2 x3 x4) (tileRow x0 p) j :=
    gate_of x1 x2 x3 x4 p 3 _ _ s3 _ (projSlab x2 3 3 rfl _)
  have s4 : ∀ d, tileStep _ _ (shapeCast S6x16 (View.ld (Val := Elt Ideal) x3 r0_9) shapeCasts_S1x6x16_S6x16) (ix2 p d) = Bilinear.state4 (tileWeights x1 x2 x3 x4) (tileRow x0 p) d :=
    step_of x1 x2 x3 x4 p 3 _ _ s3 _ g3 _ (downSlab x3 3 3 rfl _)
  have lg : ∀ c, tileHead _ (shapeCast S16x10 (View.ld (Val := Elt Ideal) x4 r0_10) shapeCasts_S16x10_S16x10) (ix2 p c) = Bilinear.logits (tileWeights x1 x2 x3 x4) (tileRow x0 p) c :=
    head_of x1 x2 x3 x4 p _ _ s4 _ (fun d c => by
      simp only [View.ld_unit_zero (S := S16x10) hz2]
      exact congrFun (shapeCast_self x4 shapeCasts_S16x10_S16x10) (ix2 d c))
  have hq := q.isLt
  by_cases h0 : q.val < 10
  · rw [Bilinear.packed_logits _ _ ⟨q.val, h0⟩ q rfl]
    exact (cat_logits _ _ _ _ _ p q ⟨q.val, h0⟩ (Nat.zero_add _).symm).trans (lg _)
  by_cases h1 : q.val < 16
  · rw [Bilinear.packed_hidden0 _ _ ⟨q.val - 10, by omega⟩ q (by show q.val = 10 + (q.val - 10); omega)]
    exact (cat_hidden0 _ _ _ _ _ p q ⟨q.val - 10, by omega⟩ (by show q.val = 10 + (q.val - 10); omega)).trans (hidden0_row x0 x1 x2 x3 x4 p _)
  by_cases h2 : q.val < 22
  · rw [Bilinear.packed_hidden1 _ _ ⟨q.val - 16, by omega⟩ q (by show q.val = 16 + (q.val - 16); omega)]
    exact (cat_hidden1 _ _ _ _ _ p q ⟨q.val - 16, by omega⟩ (by show q.val = 16 + (q.val - 16); omega)).trans (hidden1_row x0 x1 x2 x3 x4 p _)
  by_cases h3 : q.val < 28
  · rw [Bilinear.packed_hidden2 _ _ ⟨q.val - 22, by omega⟩ q (by show q.val = 22 + (q.val - 22); omega)]
    exact (cat_hidden2 _ _ _ _ _ p q ⟨q.val - 22, by omega⟩ (by show q.val = 22 + (q.val - 22); omega)).trans (g2 _)
  · rw [Bilinear.packed_hidden3 _ _ ⟨q.val - 28, by omega⟩ q (by show q.val = 28 + (q.val - 28); omega)]
    exact (cat_hidden3 _ _ _ _ _ p q ⟨q.val - 28, by omega⟩ (by show q.val = 28 + (q.val - 28); omega)).trans (g3 _)

end Row

end Cert.KernelIdeal.Hand

end
-- ==== Proof.Arrays.lean ====
/-
  The network on whole arrays.

  The weights read off five arrays of the arguments' shapes, a row read off the input array, and each result as ONE
  function of the six arrays: row `b` of a result is the network on row `b` of the input. `packedArr` is the
  34-column array holding the five results side by side. Two weight records with the same five readings are equal.
-/
import proofs.«144170_j61976378081964_2_alg».proof.Proof.Spec

noncomputable section

namespace Bilinear

open Idealize.ShloMosaic Idealize.ShloMosaic.ValueIdx

theorem Weights.eq_of (A B : Weights) (h1 : A.emb = B.emb) (h2 : A.left = B.left) (h3 : A.right = B.right)
    (h4 : A.down = B.down) (h5 : A.head = B.head) : A = B := by
  cases A; cases B; simp_all

/-- The weights read straight off arrays of the arguments' shapes. -/
def ofArrays (E : (⟨2, ![16, 784]⟩ : Shape).Idx → EReal) (L R : (⟨3, ![4, 6, 16]⟩ : Shape).Idx → EReal)
    (D : (⟨3, ![4, 16, 6]⟩ : Shape).Idx → EReal) (H : (⟨2, ![10, 16]⟩ : Shape).Idx → EReal) : Weights where
  emb d k := E (ix2 d k)
  left i j d := L (ix3 i j d)
  right i j d := R (ix3 i j d)
  down i d j := D (ix3 i d j)
  head c d := H (ix2 c d)

/-- Row `b` of the input array. -/
def rowOf (X : (⟨2, ![65536, 784]⟩ : Shape).Idx → EReal) (b : Fin 65536) : Fin 784 → EReal := fun k => X (ix2 b k)

variable (W : Weights) (X : (⟨2, ![65536, 784]⟩ : Shape).Idx → EReal)

/-- The logits of every row. -/
def logitsArr : (⟨2, ![65536, 10]⟩ : Shape).Idx → EReal := fun i => logits W (rowOf X (i 0)) (i 1)
/-- The hidden vectors of every row, block by block. -/
def hiddenArr0 : (⟨2, ![65536, 6]⟩ : Shape).Idx → EReal := fun i => hidden0 W (rowOf X (i 0)) (i 1)
def hiddenArr1 : (⟨2, ![65536, 6]⟩ : Shape).Idx → EReal := fun i => hidden1 W (rowOf X (i 0)) (i 1)
def hiddenArr2 : (⟨2, ![65536, 6]⟩ : Shape).Idx → EReal := fun i => hidden2 W (rowOf X (i 0)) (i 1)
def hiddenArr3 : (⟨2, ![65536, 6]⟩ : Shape).Idx → EReal := fun i => hidden3 W (rowOf X (i 0)) (i 1)
/-- The five results side by side, for every row. -/
def packedArr : (⟨2, ![65536, 34]⟩ : Shape).Idx → EReal := fun i => packed W (rowOf X (i 0)) (i 1)

end Bilinear

end
-- ==== Proof.Region.lean ====
/-
  The packed output array after the region.

  Before the region the host lays the weights out for the body: the embedding and the head transposed, the left and
  right projections joined along their rows and each block's `[12, 16]` matrix transposed, the way back transposed
  blockwise; the casts to a narrower float format change nothing on the extended reals. So the weights the body finds
  in its staged blocks (`tileWeights`) are the weights read straight off the arguments (`Bilinear.ofArrays`).
  The four weight windows hold their whole arrays at every grid point; point `t`'s input block is rows
  `4096 t … 4096 t + 4095` of the input and its output block the same rows of the packed array. Every row of the packed
  array lies in exactly the block of point `row / 4096`, so the array ends holding the network's packed result of every
  input row.
-/
import proofs.«144170_j61976378081964_2_alg».proof.Proof.Gen.KernelIdeal.Frame
import proofs.«144170_j61976378081964_2_alg».proof.Proof.Body
import proofs.«144170_j61976378081964_2_alg».proof.Proof.Arrays
import Idealize.ShloMosaic.Lib.Pipeline.Value
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## What the region finds in the staged weight arrays -/

/-- The staged embedding is the embedding transposed. -/
theorem entry_embed (c : Dev nD) (k : Fin 784) (d : Fin 16) :
    (V m c main_v1 : S784x16.Idx → EReal) (ix2 k d)
      = (m ((c : Thread nD τ).loc main_arg1) : S16x784.Idx → EReal) (ix2 d k) := by
  show StableHlo.after hostOps0 (fun b => m (c, b)) (Proc.devRef .tc main_v1) (ix2 k d) = _
  after_results
  exact transpose_ix2_apply _ _ k d

/-- Columns 0–5 of a staged projection matrix are the block's left projection, transposed. -/
theorem entry_left (c : Dev nD) (i : Fin 4) (d : Fin 16) (j : Fin 6) (q : Fin 12) (hq : q.val = j.val) :
    (V m c main_v4 : S4x16x12.Idx → EReal) (ix3 i d q)
      = (m ((c : Thread nD τ).loc main_arg2) : S4x6x16.Idx → EReal) (ix3 i j d) := by
  show StableHlo.after hostOps0 (fun b => m (c, b)) (Proc.devRef .tc main_v4) (ix3 i d q) = _
  after_results
  show transpose S4x16x12 [0, 2, 1]
      (concatenate S4x12x16 1 [⟨S4x6x16, m (c, Proc.devRef .tc main_arg2)⟩, ⟨S4x6x16, m (c, Proc.devRef .tc main_arg3)⟩]
        concatenates_S4x6x16_S4x6x16_S4x12x16_d1)
      transposes_S4x12x16_S4x16x12_0_2_1 (ix3 i d q) = _
  refine (transpose_ix3_021_apply _ _ i d q).trans ?_
  exact concatenate_pair_apply_left (t := S4x12x16) (s₁ := S4x6x16) (s₂ := S4x6x16) 1 _ _ _ (ix3 i q d) rfl (ix3 i j d) (fun ax => by
    match ax with
    | ⟨0, _⟩ => rfl
    | ⟨1, _⟩ => exact hq.symm
    | ⟨2, _⟩ => rfl)

/-- Columns 6–11 are the block's right projection, transposed. -/
theorem entry_right (c : Dev nD) (i : Fin 4) (d : Fin 16) (j : Fin 6) (q : Fin 12) (hq : q.val = 6 + j.val) :
    (V m c main_v4 : S4x16x12.Idx → EReal) (ix3 i d q)
      = (m ((c : Thread nD τ).loc main_arg3) : S4x6x16.Idx → EReal) (ix3 i j d) := by
  show StableHlo.after hostOps0 (fun b => m (c, b)) (Proc.devRef .tc main_v4) (ix3 i d q) = _
  after_results
  show transpose S4x16x12 [0, 2, 1]
      (concatenate S4x12x16 1 [⟨S4x6x16, m (c, Proc.devRef .tc main_arg2)⟩, ⟨S4x6x16, m (c, Proc.devRef .tc main_arg3)⟩]
        concatenates_S4x6x16_S4x6x16_S4x12x16_d1)
      transposes_S4x12x16_S4x16x12_0_2_1 (ix3 i d q) = _
  refine (transpose_ix3_021_apply _ _ i d q).trans ?_
  exact concatenate_pair_apply_right (t := S4x12x16) (s₁ := S4x6x16) (s₂ := S4x6x16) 1 _ _ _ (ix3 i q d) rfl rfl (ix3 i j d)
    (fun ax hax => by
      match ax with
      | ⟨0, _⟩ => rfl
      | ⟨1, _⟩ => exact absurd rfl hax
      | ⟨2, _⟩ => rfl)
    (by show j.val + 6 = q.val; omega)

/-- The staged way back is the way back transposed, block by block. -/
theorem entry_down (c : Dev nD) (i : Fin 4) (j : Fin 6) (d : Fin 16) :
    (V m c main_v6 : S4x6x16.Idx → EReal) (ix3 i j d)
      = (m ((c : Thread nD τ).loc main_arg4) : S4x16x6.Idx → EReal) (ix3 i d j) := by
  show StableHlo.after hostOps0 (fun b => m (c, b)) (Proc.devRef .tc main_v6) (ix3 i j d) = _
  after_results
  exact transpose_ix3_021_apply _ _ i j d

/-- The staged head is the head transposed. -/
theorem entry_head (c : Dev nD) (d : Fin 16) (k : Fin 10) :
    (V m c main_v8 : S16x10.Idx → EReal) (ix2 d k)
      = (m ((c : Thread nD τ).loc main_arg5) : S10x16.Idx → EReal) (ix2 k d) := by
  show StableHlo.after hostOps0 (fun b => m (c, b)) (Proc.devRef .tc main_v8) (ix2 d k) = _
  after_results
  exact transpose_ix2_apply _ _ d k

/-- The weights read straight off the arguments. -/
abbrev argWeights (c : Dev nD) : Bilinear.Weights :=
  Bilinear.ofArrays (m ((c : Thread nD τ).loc main_arg1)) (m ((c : Thread nD τ).loc main_arg2))
    (m ((c : Thread nD τ).loc main_arg3)) (m ((c : Thread nD τ).loc main_arg4)) (m ((c : Thread nD τ).loc main_arg5))

/-- The weights the body finds in the staged arrays are the arguments' weights. -/
theorem entryWeights (c : Dev nD) :
    tileWeights (V m c main_v1) (V m c main_v4) (V m c main_v6) (V m c main_v8) = argWeights m c :=
  Bilinear.Weights.eq_of _ _
    (funext fun d => funext fun k => entry_embed m c k d)
    (funext fun i => funext fun j => funext fun d => entry_left m c i d j _ rfl)
    (funext fun i => funext fun j => funext fun d => entry_right m c i d j _ rfl)
    (funext fun i => funext fun d => funext fun j => entry_down m c i j d)
    (funext fun k => funext fun d => entry_head m c d k)

/-! ## The windows' blocks -/

/-- The printed index maps over the grid: the input and the output move one block of rows per point, the four weight
    windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 1 holds its whole array at every point. -/
theorem iblk1_eq (c : Dev nD) (t : Fin cfg0.N) : (iblk m c 1 t : S784x16.Idx → EReal) = V m c main_v1 := by
  obtain ⟨-, -, e0, e1, -, -, -, -, -, -, -, -, -, -⟩ := idx_facts t
  funext y
  unfold iblk
  rw [View.read_apply]
  refine congrArg (V m c main_v1 : S784x16.Idx → EReal) (funext fun a => Fin.ext ?_)
  match a with
  | ⟨0, _⟩ => show win0_1.index t (0 : Fin 2) * 784 + 1 * (y 0).val = (y 0).val; rw [e0]; omega
  | ⟨1, _⟩ => show win0_1.index t (1 : Fin 2) * 16 + 1 * (y 1).val = (y 1).val; rw [e1]; omega

/-- Window 2 holds its whole array at every point. -/
theorem iblk2_eq (c : Dev nD) (t : Fin cfg0.N) : (iblk m c 2 t : S4x16x12.Idx → EReal) = V m c main_v4 := by
  obtain ⟨-, -, -, -, e0, e1, e2, -, -, -, -, -, -, -⟩ := idx_facts t
  funext y
  unfold iblk
  rw [View.read_apply]
  refine congrArg (V m c main_v4 : S4x16x12.Idx → EReal) (funext fun a => Fin.ext ?_)
  match a with
  | ⟨0, _⟩ => show win0_2.index t (0 : Fin 3) * 4 + 1 * (y 0).val = (y 0).val; rw [e0]; omega
  | ⟨1, _⟩ => show win0_2.index t (1 : Fin 3) * 16 + 1 * (y 1).val = (y 1).val; rw [e1]; omega
  | ⟨2, _⟩ => show win0_2.index t (2 : Fin 3) * 12 + 1 * (y 2).val = (y 2).val; rw [e2]; omega

/-- Window 3 holds its whole array at every point. -/
theorem iblk3_eq (c : Dev nD) (t : Fin cfg0.N) : (iblk m c 3 t : S4x6x16.Idx → EReal) = V m c main_v6 := by
  obtain ⟨-, -, -, -, -, -, -, e0, e1, e2, -, -, -, -⟩ := idx_facts t
  funext y
  unfold iblk
  rw [View.read_apply]
  refine congrArg (V m c main_v6 : S4x6x16.Idx → EReal) (funext fun a => Fin.ext ?_)
  match a with
  | ⟨0, _⟩ => show win0_3.index t (0 : Fin 3) * 4 + 1 * (y 0).val = (y 0).val; rw [e0]; omega
  | ⟨1, _⟩ => show win0_3.index t (1 : Fin 3) * 6 + 1 * (y 1).val = (y 1).val; rw [e1]; omega
  | ⟨2, _⟩ => show win0_3.index t (2 : Fin 3) * 16 + 1 * (y 2).val = (y 2).val; rw [e2]; omega

/-- Window 4 holds its whole array at every point. -/
theorem iblk4_eq (c : Dev nD) (t : Fin cfg0.N) : (iblk m c 4 t : S16x10.Idx → EReal) = V m c main_v8 := by
  obtain ⟨-, -, -, -, -, -, -, -, -, -, e0, e1, -, -⟩ := idx_facts t
  funext y
  unfold iblk
  rw [View.read_apply]
  refine congrArg (V m c main_v8 : S16x10.Idx → EReal) (funext fun a => Fin.ext ?_)
  match a with
  | ⟨0, _⟩ => show win0_4.index t (0 : Fin 2) * 16 + 1 * (y 0).val = (y 0).val; rw [e0]; omega
  | ⟨1, _⟩ => show win0_4.index t (1 : Fin 2) * 10 + 1 * (y 1).val = (y 1).val; rw [e1]; omega

/-- Point `t`'s input block is rows `4096 t …` of the input array. -/
theorem iblk0_apply (c : Dev nD) (t : Fin cfg0.N) (y : S4096x784.Idx) (i : S65536x784.Idx)
    (h0 : (i 0).val = t.val * 4096 + (y 0).val) (h1 : (i 1).val = (y 1).val) :
    (iblk m c 0 t : S4096x784.Idx → EReal) y = (m ((c : Thread nD τ).loc main_arg0) : S65536x784.Idx → EReal) i := by
  obtain ⟨e0, e1, -⟩ := idx_facts t
  unfold iblk
  rw [View.read_apply]
  show V m c main_arg0 _ = _
  rw [V_main_arg0 m c]
  refine congrArg (m ((c : Thread nD τ).loc main_arg0) : S65536x784.Idx → EReal) (funext fun a => Fin.ext ?_)
  match a with
  | ⟨0, _⟩ => show win0_0.index t (0 : Fin 2) * 4096 + 1 * (y 0).val = (i 0).val; rw [e0, h0]; omega
  | ⟨1, _⟩ => show win0_0.index t (1 : Fin 2) * 784 + 1 * (y 1).val = (i 1).val; rw [e1, h1]; omega

/-- The weights the body finds in its staged blocks, at any point, are the arguments' weights. -/
theorem blockWeights (c : Dev nD) (t : Fin cfg0.N) :
    tileWeights (iblk m c 1 t) (iblk m c 2 t) (iblk m c 3 t) (iblk m c 4 t) = argWeights m c := by
  rw [iblk1_eq m c t, iblk2_eq m c t, iblk3_eq m c t, iblk4_eq m c t]
  exact entryWeights m c

/-! ## What a point writes back, and the array after the run -/

/-- The packed result of every input row. -/
abbrev packedOf (c : Dev nD) : S65536x34.Idx → EReal :=
  Bilinear.packedArr (argWeights m c) (m ((c : Thread nD τ).loc main_arg0))

/-- The stored block at any index of the block. -/
theorem out_apply_idx (x0 : Vec Ideal S4096x784 .f32) (x1 : Vec Ideal S784x16 .bf16) (x2 : Vec Ideal S4x16x12 .bf16)
    (x3 : Vec Ideal S4x6x16 .bf16) (x4 : Vec Ideal S16x10 .bf16) (y : S4096x34.Idx) :
    out0_5 (F := Ideal) x0 x1 x2 x3 x4 y = Bilinear.packed (tileWeights x1 x2 x3 x4) (tileRow x0 (y 0)) (y 1) :=
  (congrArg (out0_5 (F := Ideal) x0 x1 x2 x3 x4) (eq_ix2 y)).trans (out_apply x0 x1 x2 x3 x4 (y 0) (y 1))

/-- WHAT POINT `t` WRITES BACK is block `t` of the packed result. -/
theorem flushed_eq (c : Dev nD) (t : Fin cfg0.N) :
    (dats m 0 c).flushed 5 t = ((cfg0.win 5).blk t).view.read (Elt Ideal) (packedOf m c) := by
  show (cfg0.win 5).cut (grid0.coords t) ((dats m 0 c).after 5 t) = _
  rw [after0_5]
  obtain ⟨-, -, -, -, -, -, -, -, -, -, -, -, e50, e51⟩ := idx_facts t
  funext y
  show out0_5 (F := Ideal) (iblk m c 0 t) (iblk m c 1 t) (iblk m c 2 t) (iblk m c 3 t) (iblk m c 4 t) y
      = Bilinear.packedArr (argWeights m c) (m ((c : Thread nD τ).loc main_arg0)) (((cfg0.win 5).blk t).view.emb y)
  refine (out_apply_idx (iblk m c 0 t) (iblk m c 1 t) (iblk m c 2 t) (iblk m c 3 t) (iblk m c 4 t) y).trans ?_
  rw [blockWeights m c t]
  unfold Bilinear.packedArr
  refine congrArg₂ (Bilinear.packed (argWeights m c)) (funext fun k => ?_) (Fin.ext ?_)
  · exact iblk0_apply m c t (ix2 (y 0) k) (ix2 ((((cfg0.win 5).blk t).view.emb y) 0) k)
      (by show win0_5.index t (0 : Fin 2) * 4096 + 1 * (y 0).val = t.val * 4096 + (y 0).val; rw [e50]; omega) rfl
  · show (y 1).val = win0_5.index t (1 : Fin 2) * 34 + 1 * (y 1).val
    rw [e51]; omega

/-- An index of the packed array is in point `t`'s block iff each coordinate is in the block's range. -/
theorem mem_blk5 (t : Fin cfg0.N) (i : S65536x34.Idx) :
    i ∈ ((cfg0.win 5).blk t).view.set ↔ ∀ a : Fin 2, win0_5.index t a * S4096x34.size a ≤ (i a).val
      ∧ (i a).val < win0_5.index t a * S4096x34.size a + S4096x34.size a := by
  show i ∈ ((View.whole main_v9).slice (win0_5.rect t)).set ↔ _
  rw [View.set_slice_whole, Rect.mem_set_unit]
  exact Iff.rfl

/-- Row `r` of the packed array is written back by point `r / 4096`. -/
theorem cover (i : S65536x34.Idx) :
    ∃ t : Fin cfg0.N, (cfg0.win 5).flush t = true ∧ i ∈ ((cfg0.win 5).blk t).view.set := by
  have hi0 : (i 0).val < 65536 := (i 0).isLt
  have hi1 : (i 1).val < 34 := (i 1).isLt
  obtain ⟨t, ht⟩ : ∃ t : Fin cfg0.N, t.val = (i 0).val / 4096 :=
    ⟨⟨(i 0).val / 4096, by rw [show cfg0.N = 16 from N_0]; omega⟩, rfl⟩
  obtain ⟨-, -, -, -, -, -, -, -, -, -, -, -, e50, e51⟩ := idx_facts t
  refine ⟨t, flush0_5 t, ?_⟩
  rw [mem_blk5]
  intro a
  match a with
  | ⟨0, _⟩ =>
    show win0_5.index t (0 : Fin 2) * 4096 ≤ (i 0).val ∧ (i 0).val < win0_5.index t (0 : Fin 2) * 4096 + 4096
    rw [e50, ht]; omega
  | ⟨1, _⟩ =>
    show win0_5.index t (1 : Fin 2) * 34 ≤ (i 1).val ∧ (i 1).val < win0_5.index t (1 : Fin 2) * 34 + 34
    rw [e51]; omega

/-- THE PACKED ARRAY AFTER THE RUN holds the network's packed result of every input row. -/
theorem final_packed (c : Dev nD) : (dats m 0 c).arrAt 5 cfg0.N = packedOf m c :=
  (dats m 0 c).arrAt_eq_of_cover 5 (packedOf m c) (fun t _ => flushed_eq m c t) (fun i => cover i)

end Cert.KernelIdeal.Hand

end
-- ==== Proof.KernelRun.lean ====
/-
  The kernel's five results.

  After the region the host cuts the packed array into its five column ranges. Each result array is therefore ONE
  function of the argument arrays: row `b` of the logits (of a block's hidden vectors) is the network's logits (hidden
  vector) on row `b` of the input. The run below states every result at that function and the arguments unchanged.
-/
import proofs.«144170_j61976378081964_2_alg».proof.Proof.Region

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The host's five slices of the packed array -/

/-- The logits are columns 0–9 of the packed array. -/
theorem tail_logits_apply (c : Dev nD) (b : Fin 65536) (k : Fin 10) :
    (Pipeline.afterTail₀ cfgs (dats m) 0 (V0 m) [hostOps1] c main_v10 : S65536x10.Idx → EReal) (ix2 b k)
      = Bilinear.logitsArr (argWeights m c) (m ((c : Thread nD τ).loc main_arg0)) (ix2 b k) := by
  have hk := k.isLt
  unfold Pipeline.afterTail₀
  show StableHlo.after hostOps1 _ (Proc.devRef .tc main_v10) (ix2 b k) = _
  after_results
  show extractStridedSlice (s := S65536x34) S65536x10 ![0, 0] _ slices_S65536x34_S65536x10_0_0 (ix2 b k) = _
  refine (slice2_axis1_apply 0 _ _ b k ⟨0 + k.val, by omega⟩ rfl).trans ?_
  refine (congrFun ((Pipeline.withArrays_arr spec0 launch0.win.arr_inj c _ _ 5).trans (final_packed m c)) _).trans ?_
  exact Bilinear.packed_logits _ _ k _ (Nat.zero_add _)

theorem tail_logits (c : Dev nD) :
    Pipeline.afterTail₀ cfgs (dats m) 0 (V0 m) [hostOps1] c main_v10
      = Bilinear.logitsArr (argWeights m c) (m ((c : Thread nD τ).loc main_arg0)) :=
  funext fun i => by
    obtain ⟨b, k, rfl⟩ : ∃ (b : Fin 65536) (k : Fin 10), i = ix2 b k := ⟨i 0, i 1, eq_ix2 i⟩
    exact tail_logits_apply m c b k

/-- Block 0's hidden vectors are columns 10–15. -/
theorem tail_hidden0_apply (c : Dev nD) (b : Fin 65536) (k : Fin 6) :
    (Pipeline.afterTail₀ cfgs (dats m) 0 (V0 m) [hostOps1] c main_v11 : S65536x6.Idx → EReal) (ix2 b k)
      = Bilinear.hiddenArr0 (argWeights m c) (m ((c : Thread nD τ).loc main_arg0)) (ix2 b k) := by
  have hk := k.isLt
  unfold Pipeline.afterTail₀
  show StableHlo.after hostOps1 _ (Proc.devRef .tc main_v11) (ix2 b k) = _
  after_results
  show extractStridedSlice (s := S65536x34) S65536x6 ![0, 10] _ slices_S65536x34_S65536x6_0_10 (ix2 b k) = _
  refine (slice2_axis1_apply 10 _ _ b k ⟨10 + k.val, by omega⟩ rfl).trans ?_
  refine (congrFun ((Pipeline.withArrays_arr spec0 launch0.win.arr_inj c _ _ 5).trans (final_packed m c)) _).trans ?_
  exact Bilinear.packed_hidden0 _ _ k _ rfl

theorem tail_hidden0 (c : Dev nD) :
    Pipeline.afterTail₀ cfgs (dats m) 0 (V0 m) [hostOps1] c main_v11
      = Bilinear.hiddenArr0 (argWeights m c) (m ((c : Thread nD τ).loc main_arg0)) :=
  funext fun i => by
    obtain ⟨b, k, rfl⟩ : ∃ (b : Fin 65536) (k : Fin 6), i = ix2 b k := ⟨i 0, i 1, eq_ix2 i⟩
    exact tail_hidden0_apply m c b k

/-- Block 1's hidden vectors are columns 16–21. -/
theorem tail_hidden1_apply (c : Dev nD) (b : Fin 65536) (k : Fin 6) :
    (Pipeline.afterTail₀ cfgs (dats m) 0 (V0 m) [hostOps1] c main_v12 : S65536x6.Idx → EReal) (ix2 b k)
      = Bilinear.hiddenArr1 (argWeights m c) (m ((c : Thread nD τ).loc main_arg0)) (ix2 b k) := by
  have hk := k.isLt
  unfold Pipeline.afterTail₀
  show StableHlo.after hostOps1 _ (Proc.devRef .tc main_v12) (ix2 b k) = _
  after_results
  show extractStridedSlice (s := S65536x34) S65536x6 ![0, 16] _ slices_S65536x34_S65536x6_0_16 (ix2 b k) = _
  refine (slice2_axis1_apply 16 _ _ b k ⟨16 + k.val, by omega⟩ rfl).trans ?_
  refine (congrFun ((Pipeline.withArrays_arr spec0 launch0.win.arr_inj c _ _ 5).trans (final_packed m c)) _).trans ?_
  exact Bilinear.packed_hidden1 _ _ k _ rfl

theorem tail_hidden1 (c : Dev nD) :
    Pipeline.afterTail₀ cfgs (dats m) 0 (V0 m) [hostOps1] c main_v12
      = Bilinear.hiddenArr1 (argWeights m c) (m ((c : Thread nD τ).loc main_arg0)) :=
  funext fun i => by
    obtain ⟨b, k, rfl⟩ : ∃ (b : Fin 65536) (k : Fin 6), i = ix2 b k := ⟨i 0, i 1, eq_ix2 i⟩
    exact tail_hidden1_apply m c b k

/-- Block 2's hidden vectors are columns 22–27. -/
theorem tail_hidden2_apply (c : Dev nD) (b : Fin 65536) (k : Fin 6) :
    (Pipeline.afterTail₀ cfgs (dats m) 0 (V0 m) [hostOps1] c main_v13 : S65536x6.Idx → EReal) (ix2 b k)
      = Bilinear.hiddenArr2 (argWeights m c) (m ((c : Thread nD τ).loc main_arg0)) (ix2 b k) := by
  have hk := k.isLt
  unfold Pipeline.afterTail₀
  show StableHlo.after hostOps1 _ (Proc.devRef .tc main_v13) (ix2 b k) = _
  after_results
  show extractStridedSlice (s := S65536x34) S65536x6 ![0, 22] _ slices_S65536x34_S65536x6_0_22 (ix2 b k) = _
  refine (slice2_axis1_apply 22 _ _ b k ⟨22 + k.val, by omega⟩ rfl).trans ?_
  refine (congrFun ((Pipeline.withArrays_arr spec0 launch0.win.arr_inj c _ _ 5).trans (final_packed m c)) _).trans ?_
  exact Bilinear.packed_hidden2 _ _ k _ rfl

theorem tail_hidden2 (c : Dev nD) :
    Pipeline.afterTail₀ cfgs (dats m) 0 (V0 m) [hostOps1] c main_v13
      = Bilinear.hiddenArr2 (argWeights m c) (m ((c : Thread nD τ).loc main_arg0)) :=
  funext fun i => by
    obtain ⟨b, k, rfl⟩ : ∃ (b : Fin 65536) (k : Fin 6), i = ix2 b k := ⟨i 0, i 1, eq_ix2 i⟩
    exact tail_hidden2_apply m c b k

/-- Block 3's hidden vectors are columns 28–33. -/
theorem tail_hidden3_apply (c : Dev nD) (b : Fin 65536) (k : Fin 6) :
    (Pipeline.afterTail₀ cfgs (dats m) 0 (V0 m) [hostOps1] c main_v14 : S65536x6.Idx → EReal) (ix2 b k)
      = Bilinear.hiddenArr3 (argWeights m c) (m ((c : Thread nD τ).loc main_arg0)) (ix2 b k) := by
  have hk := k.isLt
  unfold Pipeline.afterTail₀
  show StableHlo.after hostOps1 _ (Proc.devRef .tc main_v14) (ix2 b k) = _
  after_results
  show extractStridedSlice (s := S65536x34) S65536x6 ![0, 28] _ slices_S65536x34_S65536x6_0_28 (ix2 b k) = _
  refine (slice2_axis1_apply 28 _ _ b k ⟨28 + k.val, by omega⟩ rfl).trans ?_
  refine (congrFun ((Pipeline.withArrays_arr spec0 launch0.win.arr_inj c _ _ 5).trans (final_packed m c)) _).trans ?_
  exact Bilinear.packed_hidden3 _ _ k _ rfl

theorem tail_hidden3 (c : Dev nD) :
    Pipeline.afterTail₀ cfgs (dats m) 0 (V0 m) [hostOps1] c main_v14
      = Bilinear.hiddenArr3 (argWeights m c) (m ((c : Thread nD τ).loc main_arg0)) :=
  funext fun i => by
    obtain ⟨b, k, rfl⟩ : ∃ (b : Fin 65536) (k : Fin 6), i = ix2 b k := ⟨i 0, i 1, eq_ix2 i⟩
    exact tail_hidden3_apply m c b k

/-! ## The run, read -/

/-- Every weakly fair execution of the kernel's program terminates with each result at its function of the arguments
    and the arguments unchanged. -/
theorem run : θ_run defs (onTc (τ := τ) (main (F := Ideal))) ⟨m, fun _ => 0, ρ⟩ fun r => ∀ c : Dev nD,
      r.2.mem ((c.tc : Thread nD τ).loc main_v10) = Bilinear.logitsArr (argWeights m c) (m ((c.tc : Thread nD τ).loc main_arg0))
      ∧ r.2.mem ((c.tc : Thread nD τ).loc main_v11) = Bilinear.hiddenArr0 (argWeights m c) (m ((c.tc : Thread nD τ).loc main_arg0))
      ∧ r.2.mem ((c.tc : Thread nD τ).loc main_v12) = Bilinear.hiddenArr1 (argWeights m c) (m ((c.tc : Thread nD τ).loc main_arg0))
      ∧ r.2.mem ((c.tc : Thread nD τ).loc main_v13) = Bilinear.hiddenArr2 (argWeights m c) (m ((c.tc : Thread nD τ).loc main_arg0))
      ∧ r.2.mem ((c.tc : Thread nD τ).loc main_v14) = Bilinear.hiddenArr3 (argWeights m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v10 (Pipeline.mem_restRefs_of main_v10 (by decide) (by decide))).trans (tail_logits m c),
      ((h c).2 main_v11 (Pipeline.mem_restRefs_of main_v11 (by decide) (by decide))).trans (tail_hidden0 m c),
      ((h c).2 main_v12 (Pipeline.mem_restRefs_of main_v12 (by decide) (by decide))).trans (tail_hidden1 m c),
      ((h c).2 main_v13 (Pipeline.mem_restRefs_of main_v13 (by decide) (by decide))).trans (tail_hidden2 m c),
      ((h c).2 main_v14 (Pipeline.mem_restRefs_of main_v14 (by decide) (by decide))).trans (tail_hidden3 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«144170_j61976378081964_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.RefRead.lean ====
/-
  The reference, row by row.

  Every stage of the reference is a function of the argument arrays (the generated stage terms `val_main_v…`). Row `b`
  of each state and hidden array is the network of `Spec.lean` applied to row `b` of the input, with the weights read
  straight off the arguments: the reference multiplies by each weight matrix transposed, and takes block `i`'s three
  matrices as slab `i` of the three weight stacks.
-/
import proofs.«144170_j61976378081964_2_alg».proof.Proof.Gen.ReferenceIdeal.Read
import proofs.«144170_j61976378081964_2_alg».proof.Proof.Arrays
import proofs.«144170_j61976378081964_2_alg».proof.Proof.LibHostSlab

noncomputable section

namespace Cert.ReferenceIdeal.Hand

open Idealize.ShloMosaic Idealize.ShloMosaic.ValueIdx Cert.ReferenceIdeal Cert.ReferenceIdeal.Gen Cert.ReferenceIdeal.Read

variable (X : (⟨S65536x784, .f32⟩ : BufTy).Contents (Elt Ideal)) (W1 : (⟨S16x784, .f32⟩ : BufTy).Contents (Elt Ideal))
  (L R : (⟨S4x6x16, .f32⟩ : BufTy).Contents (Elt Ideal)) (D : (⟨S4x16x6, .f32⟩ : BufTy).Contents (Elt Ideal))
  (H : (⟨S10x16, .f32⟩ : BufTy).Contents (Elt Ideal)) (b : Fin 65536)

/-- The network's weights, read straight off the argument arrays. -/
abbrev refWeights : Bilinear.Weights := Bilinear.ofArrays W1 L R D H

/-- Row `b` of the input array. -/
abbrev refRow : Fin 784 → EReal := Bilinear.rowOf X b

/-- A hidden array at row `b`: the state's row against the two projections, both given transposed. -/
theorem ref_gate (i : Fin 4) (S : FVec Ideal S65536x16 .f32) (st : Fin 16 → EReal) (hs : ∀ d, S (ix2 b d) = st d)
    (A B : FVec Ideal S16x6 .f32) (hA : ∀ (d : Fin 16) (j : Fin 6), A (ix2 d j) = L (ix3 i j d))
    (hB : ∀ (d : Fin 16) (j : Fin 6), B (ix2 d j) = R (ix3 i j d)) (j : Fin 6) :
    mulf (Host.dotGeneral dot_S65536x16_S16x6_S65536x6_1_0_0_1_n_n none S A)
        (Host.dotGeneral dot_S65536x16_S16x6_S65536x6_1_0_0_1_n_n none S B) (ix2 b j)
      = Bilinear.gate (refWeights W1 L R D H) i st j := by
  unfold Bilinear.gate
  refine congrArg₂ (· * ·) ?_ ?_
  · exact (Bilinear.Host.dot_apply _ rfl rfl rfl rfl rfl rfl S A none b j).trans
      (Finset.sum_congr rfl fun d _ => congrArg₂ (· * ·) (hs d) (hA d j))
  · exact (Bilinear.Host.dot_apply _ rfl rfl rfl rfl rfl rfl S B none b j).trans
      (Finset.sum_congr rfl fun d _ => congrArg₂ (· * ·) (hs d) (hB d j))

/-- A new state array at row `b`: the old row plus the hidden row against the way back, given transposed. -/
theorem ref_step (i : Fin 4) (S : FVec Ideal S65536x16 .f32) (st : Fin 16 → EReal) (hs : ∀ d, S (ix2 b d) = st d)
    (G : FVec Ideal S65536x6 .f32) (hg : ∀ j, G (ix2 b j) = Bilinear.gate (refWeights W1 L R D H) i st j)
    (Dm : FVec Ideal S6x16 .f32) (hD : ∀ (j : Fin 6) (d : Fin 16), Dm (ix2 j d) = D (ix3 i d j)) (d : Fin 16) :
    addf S (Host.dotGeneral dot_S65536x6_S6x16_S65536x16_1_0_0_1_n_n none G Dm) (ix2 b d)
      = Bilinear.step (refWeights W1 L R D H) i st d := by
  unfold Bilinear.step
  exact congrArg₂ (· + ·) (hs d)
    ((Bilinear.Host.dot_apply _ rfl rfl rfl rfl rfl rfl G Dm none b d).trans
      (Finset.sum_congr rfl fun j _ => congrArg₂ (· * ·) (hg j) (hD j d)))

/-- The embedded array at row `b`. -/
theorem state0_row (d : Fin 16) :
    val_main_v1 (F := Ideal) X W1 (ix2 b d) = Bilinear.state0 (refWeights W1 L R D H) (refRow X b) d :=
  (Bilinear.Host.dot_apply _ rfl rfl rfl rfl rfl rfl X (val_main_v0 (F := Ideal) W1) none b d).trans
    (Finset.sum_congr rfl fun k _ => congrArg (X (ix2 b k) * ·) (transpose_ix2_apply W1 _ k d))

/-! ### Block 0 -/

theorem left0_apply (d : Fin 16) (j : Fin 6) : val_main_v4 (F := Ideal) L (ix2 d j) = L (ix3 0 j d) :=
  Bilinear.Host.slabT_apply L 0 0 rfl _ _ _ d j

theorem right0_apply (d : Fin 16) (j : Fin 6) : val_main_v8 (F := Ideal) R (ix2 d j) = R (ix3 0 j d) :=
  Bilinear.Host.slabT_apply R 0 0 rfl _ _ _ d j

theorem down0_apply (j : Fin 6) (d : Fin 16) : val_main_v13 (F := Ideal) D (ix2 j d) = D (ix3 0 d j) :=
  Bilinear.Host.slabT_apply D 0 0 rfl _ _ _ j d

theorem hidden0_row (j : Fin 6) :
    val_main_v10 (F := Ideal) X W1 L R (ix2 b j) = Bilinear.hidden0 (refWeights W1 L R D H) (refRow X b) j :=
  ref_gate W1 L R D H b 0 (val_main_v1 (F := Ideal) X W1) _ (state0_row X W1 L R D H b) (val_main_v4 (F := Ideal) L) (val_main_v8 (F := Ideal) R)
    (left0_apply L) (right0_apply R) j

theorem state1_row (d : Fin 16) :
    val_main_v15 (F := Ideal) X W1 L R D (ix2 b d) = Bilinear.state1 (refWeights W1 L R D H) (refRow X b) d :=
  ref_step W1 L R D H b 0 (val_main_v1 (F := Ideal) X W1) _ (state0_row X W1 L R D H b) (val_main_v10 (F := Ideal) X W1 L R) (hidden0_row X W1 L R D H b)
    (val_main_v13 (F := Ideal) D) (down0_apply D) d

/-! ### Block 1 -/

theorem left1_apply (d : Fin 16) (j : Fin 6) : val_main_v18 (F := Ideal) L (ix2 d j) = L (ix3 1 j d) :=
  Bilinear.Host.slabT_apply L 1 1 rfl _ _ _ d j

theorem right1_apply (d : Fin 16) (j : Fin 6) : val_main_v22 (F := Ideal) R (ix2 d j) = R (ix3 1 j d) :=
  Bilinear.Host.slabT_apply R 1 1 rfl _ _ _ d j

theorem down1_apply (j : Fin 6) (d : Fin 16) : val_main_v27 (F := Ideal) D (ix2 j d) = D (ix3 1 d j) :=
  Bilinear.Host.slabT_apply D 1 1 rfl _ _ _ j d

theorem hidden1_row (j : Fin 6) :
    val_main_v24 (F := Ideal) X W1 L R D (ix2 b j) = Bilinear.hidden1 (refWeights W1 L R D H) (refRow X b) j :=
  ref_gate W1 L R D H b 1 (val_main_v15 (F := Ideal) X W1 L R D) _ (state1_row X W1 L R D H b) (val_main_v18 (F := Ideal) L) (val_main_v22 (F := Ideal) R)
    (left1_apply L) (right1_apply R) j

theorem state2_row (d : Fin 16) :
    val_main_v29 (F := Ideal) X W1 L R D (ix2 b d) = Bilinear.state2 (refWeights W1 L R D H) (refRow X b) d :=
  ref_step W1 L R D H b 1 (val_main_v15 (F := Ideal) X W1 L R D) _ (state1_row X W1 L R D H b) (val_main_v24 (F := Ideal) X W1 L R D) (hidden1_row X W1 L R D H b)
    (val_main_v27 (F := Ideal) D) (down1_apply D) d

/-! ### Block 2 -/

theorem left2_apply (d : Fin 16) (j : Fin 6) : val_main_v32 (F := Ideal) L (ix2 d j) = L (ix3 2 j d) :=
  Bilinear.Host.slabT_apply L 2 2 rfl _ _ _ d j

theorem right2_apply (d : Fin 16) (j : Fin 6) : val_main_v36 (F := Ideal) R (ix2 d j) = R (ix3 2 j d) :=
  Bilinear.Host.slabT_apply R 2 2 rfl _ _ _ d j

theorem down2_apply (j : Fin 6) (d : Fin 16) : val_main_v41 (F := Ideal) D (ix2 j d) = D (ix3 2 d j) :=
  Bilinear.Host.slabT_apply D 2 2 rfl _ _ _ j d

theorem hidden2_row (j : Fin 6) :
    val_main_v38 (F := Ideal) X W1 L R D (ix2 b j) = Bilinear.hidden2 (refWeights W1 L R D H) (refRow X b) j :=
  ref_gate W1 L R D H b 2 (val_main_v29 (F := Ideal) X W1 L R D) _ (state2_row X W1 L R D H b) (val_main_v32 (F := Ideal) L) (val_main_v36 (F := Ideal) R)
    (left2_apply L) (right2_apply R) j

theorem state3_row (d : Fin 16) :
    val_main_v43 (F := Ideal) X W1 L R D (ix2 b d) = Bilinear.state3 (refWeights W1 L R D H) (refRow X b) d :=
  ref_step W1 L R D H b 2 (val_main_v29 (F := Ideal) X W1 L R D) _ (state2_row X W1 L R D H b) (val_main_v38 (F := Ideal) X W1 L R D) (hidden2_row X W1 L R D H b)
    (val_main_v41 (F := Ideal) D) (down2_apply D) d

/-! ### Block 3 -/

theorem left3_apply (d : Fin 16) (j : Fin 6) : val_main_v46 (F := Ideal) L (ix2 d j) = L (ix3 3 j d) :=
  Bilinear.Host.slabT_apply L 3 3 rfl _ _ _ d j

theorem right3_apply (d : Fin 16) (j : Fin 6) : val_main_v50 (F := Ideal) R (ix2 d j) = R (ix3 3 j d) :=
  Bilinear.Host.slabT_apply R 3 3 rfl _ _ _ d j

theorem down3_apply (j : Fin 6) (d : Fin 16) : val_main_v55 (F := Ideal) D (ix2 j d) = D (ix3 3 d j) :=
  Bilinear.Host.slabT_apply D 3 3 rfl _ _ _ j d

theorem hidden3_row (j : Fin 6) :
    val_main_v52 (F := Ideal) X W1 L R D (ix2 b j) = Bilinear.hidden3 (refWeights W1 L R D H) (refRow X b) j :=
  ref_gate W1 L R D H b 3 (val_main_v43 (F := Ideal) X W1 L R D) _ (state3_row X W1 L R D H b) (val_main_v46 (F := Ideal) L) (val_main_v50 (F := Ideal) R)
    (left3_apply L) (right3_apply R) j

theorem state4_row (d : Fin 16) :
    val_main_v57 (F := Ideal) X W1 L R D (ix2 b d) = Bilinear.state4 (refWeights W1 L R D H) (refRow X b) d :=
  ref_step W1 L R D H b 3 (val_main_v43 (F := Ideal) X W1 L R D) _ (state3_row X W1 L R D H b) (val_main_v52 (F := Ideal) X W1 L R D) (hidden3_row X W1 L R D H b)
    (val_main_v55 (F := Ideal) D) (down3_apply D) d

/-! ### The head -/

/-- The logits array at row `b`. -/
theorem logits_row (c : Fin 10) :
    val_main_v59 (F := Ideal) X W1 L R D H (ix2 b c) = Bilinear.logits (refWeights W1 L R D H) (refRow X b) c :=
  (Bilinear.Host.dot_apply _ rfl rfl rfl rfl rfl rfl (val_main_v57 (F := Ideal) X W1 L R D) (val_main_v58 (F := Ideal) H) none b c).trans
    (Finset.sum_congr rfl fun d _ => congrArg₂ (· * ·) (state4_row X W1 L R D H b d) (transpose_ix2_apply H _ d c))

end Cert.ReferenceIdeal.Hand

end
-- ==== Proof.lean ====
/-
  A bilinear residual network — an embedding of 784 inputs into a state of 16 numbers, four blocks that each multiply
  two 6-wide projections of the state entry by entry and add the product's image back onto the state, and a 10-way
  head — computed for 65536 rows at once by a kernel and by a reference, returns on the extended reals the same five
  arrays (the logits and the four blocks' hidden vectors).

  The kernel streams the rows through a grid of 16 points of 4096 rows each. It is given the weights re-laid: the
  embedding and the head transposed, each block's left and right projection joined into one `[16, 12]` matrix
  (columns 0–5 left, 6–11 right), the way back transposed; it casts every matrix operand to a narrower float format,
  which on the extended reals is the identity; and it stores a point's five results side by side in one 34-column
  block, which the host cuts apart after the region. The reference multiplies by each weight matrix transposed and
  takes block `i`'s matrices as slab `i` of the three weight stacks. Row `b` of every result depends on row `b` of the
  input alone, and both programs compute it by the same sums and products in the same grouping (`Spec.lean`): the
  kernel's one product with the joined projections, cut in two, is the reference's two products. So no law beyond
  reading each operation at an entry is needed, and none that asks the inputs to be finite.

  `Body.lean` reads a point's stored block row by row; `Region.lean` the weights the region finds, the windows'
  blocks and the packed array after the run; `KernelRun.lean` the host's five cuts; `RefRead.lean` the reference's
  stages row by row. Here the two runs are put side by side.
-/
import proofs.«144170_j61976378081964_2_alg».proof.Defs
import proofs.«144170_j61976378081964_2_alg».proof.Proof.Gen.Kernel
import proofs.«144170_j61976378081964_2_alg».proof.Proof.Gen.Kernel.Skeleton
import proofs.«144170_j61976378081964_2_alg».proof.Proof.Gen.Kernel.Launch
import proofs.«144170_j61976378081964_2_alg».proof.Proof.Gen.Kernel.Points
import proofs.«144170_j61976378081964_2_alg».proof.Proof.Gen.Kernel.Frame
import proofs.«144170_j61976378081964_2_alg».proof.Proof.Gen.KernelIdeal
import proofs.«144170_j61976378081964_2_alg».proof.Proof.Gen.KernelIdeal.Skeleton
import proofs.«144170_j61976378081964_2_alg».proof.Proof.Gen.KernelIdeal.Launch
import proofs.«144170_j61976378081964_2_alg».proof.Proof.Gen.KernelIdeal.Points
import proofs.«144170_j61976378081964_2_alg».proof.Proof.Gen.KernelIdeal.Frame
import proofs.«144170_j61976378081964_2_alg».proof.Proof.Gen.ReferenceIdeal
import proofs.«144170_j61976378081964_2_alg».proof.Proof.Gen.ReferenceIdeal.Run
import proofs.«144170_j61976378081964_2_alg».proof.Proof.Gen.ReferenceIdeal.Read
import proofs.«144170_j61976378081964_2_alg».proof.Proof.Gen.Pre_finite_inputs
import proofs.«144170_j61976378081964_2_alg».proof.Proof.KernelRun
import proofs.«144170_j61976378081964_2_alg».proof.Proof.RefRead
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its arguments as they were: its run, the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- From memories that agree on the six arguments both programs end with every result array at the network's result
    of the arguments, row by row: the kernel by its run (`KernelRun.lean`), the reference stage by stage
    (`RefRead.lean`). -/
theorem algebraic : Cert.algebraic_KernelIdeal_ReferenceIdeal := by
  intro m ρ m' ρ' _ hagree
  refine ⟨_, _, _, _, _, Cert.KernelIdeal.Hand.run m ρ, ?_⟩
  refine (θ_run Cert.ReferenceIdeal.defs _ _).mono (fun _ h c => ?_) (Cert.ReferenceIdeal.Value.run (F := Ideal) m' ρ')
  obtain ⟨h0, h1, h2, h3, h4, hargs⟩ := h c
  obtain ⟨a0, a1, a2, a3, a4, a5⟩ := hagree c
  refine ⟨?_, ?_, ?_, ?_, ?_, hargs⟩
  · refine (h0.trans (Cert.ReferenceIdeal.Read.val_main_v59_eq m' c)).trans ?_
    rw [a0, a1, a2, a3, a4, a5]
    funext i
    obtain ⟨b, k, rfl⟩ : ∃ (b : Fin 65536) (k : Fin 10), i = ix2 b k := ⟨i 0, i 1, eq_ix2 i⟩
    exact Cert.ReferenceIdeal.Hand.logits_row _ _ _ _ _ _ b k
  · refine (h1.trans (Cert.ReferenceIdeal.Read.val_main_v10_eq _ _ _ _)).trans ?_
    rw [a0, a1, a2, a3]
    funext i
    obtain ⟨b, k, rfl⟩ : ∃ (b : Fin 65536) (k : Fin 6), i = ix2 b k := ⟨i 0, i 1, eq_ix2 i⟩
    exact Cert.ReferenceIdeal.Hand.hidden0_row _ _ _ _ _ _ b k
  · refine (h2.trans (Cert.ReferenceIdeal.Read.val_main_v24_eq _ _ _ _ _)).trans ?_
    rw [a0, a1, a2, a3, a4]
    funext i
    obtain ⟨b, k, rfl⟩ : ∃ (b : Fin 65536) (k : Fin 6), i = ix2 b k := ⟨i 0, i 1, eq_ix2 i⟩
    exact Cert.ReferenceIdeal.Hand.hidden1_row _ _ _ _ _ _ b k
  · refine (h3.trans (Cert.ReferenceIdeal.Read.val_main_v38_eq m' c)).trans ?_
    rw [a0, a1, a2, a3, a4]
    funext i
    obtain ⟨b, k, rfl⟩ : ∃ (b : Fin 65536) (k : Fin 6), i = ix2 b k := ⟨i 0, i 1, eq_ix2 i⟩
    exact Cert.ReferenceIdeal.Hand.hidden2_row _ _ _ _ _ _ b k
  · refine (h4.trans (Cert.ReferenceIdeal.Read.val_main_v52_eq m' c)).trans ?_
    rw [a0, a1, a2, a3, a4]
    funext i
    obtain ⟨b, k, rfl⟩ : ∃ (b : Fin 65536) (k : Fin 6), i = ix2 b k := ⟨i 0, i 1, eq_ix2 i⟩
    exact Cert.ReferenceIdeal.Hand.hidden3_row _ _ _ _ _ _ b k

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
